-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x32 : Shape := ⟨3, ![64, 8192, 32]⟩
abbrev S64x16 : Shape := ⟨2, ![64, 16]⟩
abbrev S16x32 : Shape := ⟨2, ![16, 32]⟩
abbrev S16x16 : Shape := ⟨2, ![16, 16]⟩
abbrev S32x16 : Shape := ⟨2, ![32, 16]⟩
abbrev S16 : Shape := ⟨1, ![16]⟩
abbrev S16x48 : Shape := ⟨2, ![16, 48]⟩
abbrev S_ : Shape := ⟨0, ![]⟩

class Facts : Prop where
  bcast_S_S64x8192x32 : S_.BroadcastsInDim S64x8192x32 (![] : Fin 0 → Fin S64x8192x32.rank)
  reducesTo_S64x8192x32_S_d0_1_2 : S64x8192x32.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S16x32 : S_.BroadcastsInDim S16x32 (![] : Fin 0 → Fin S16x32.rank)
  reducesTo_S16x32_S_d0_1 : S16x32.ReducesTo [0, 1] S_
  bcast_S_S16x16 : S_.BroadcastsInDim S16x16 (![] : Fin 0 → Fin S16x16.rank)
  reducesTo_S16x16_S_d0_1 : S16x16.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x48 : S_.BroadcastsInDim S16x48 (![] : Fin 0 → Fin S16x48.rank)
  reducesTo_S16x48_S_d0_1 : S16x48.ReducesTo [0, 1] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S16x16 .f32) (main_arg8 : FVec F S16 .f32) (main_arg9 : FVec F S16x48 .f32) (main_arg10 : FVec F S16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x48 .f32 := Host.absf main_arg9
  let main_cst_16 : FVec F S_ .f32 := constant S_ .f32 0x7F800000#32
  let main_v45 : FVec F S16x48 .f32 := broadcastInDim S16x48 ![] bcast_S_S16x48 main_cst_16
  let main_v46 : IVec S16x48 1 := cmpf .olt main_v44 main_v45
  let main_c_17 : IVec S_ 1 := constantI S_ 1 1#1
  let main_v47 : IVec S_ 1 := (fun x v => Host.reduce IntOp.andi x v reducesTo_S16x48_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S32x16 .f32) (main_arg5 : FVec F S16x32 .f32) (main_arg6 : FVec F S16 .f32) (main_arg7 : FVec F S16x16 .f32) (main_arg8 : FVec F S16 .f32) (main_arg9 : FVec F S16x48 .f32) (main_arg10 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16x32 .f32 := Host.absf main_arg5
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x8192x32 .f32) (main_arg1 : FVec F S64x16 .f32) (main_arg2 : FVec F S16x32 .f32) (main_arg3 : FVec F S16x16 .f32) (main_arg4 : FVec F S32x16 .f32) (main_arg5 : FVec F S16x32 .f32) (main_arg6 : FVec F S16 .f32) (main_arg7 : FVec F S16x16 .f32) (main_arg8 : FVec F S16 .f32) (main_arg9 : FVec F S16x48 .f32) (main_arg10 : FVec F S16 .f32) : IVec S_ 1 :=
  let main_v0 : FVec F S64x8192x32 .f32 := Host.absf main_arg0
  let main_cst : FVec F S_ .f32 := constant S_ .f32 0x7F800000#32
  let main_v1 : FVec F S64x8192x32 .f32 := broadcastInDim S64x8192x32 ![] bcast_S_S64x8192x32 main_cst
  let main_v2 : IVec S64x8192x32 1 := cmpf .olt main_v0 main_v1
  let main_c : IVec S_ 1 := constantI S_ 1 1#1
  let main_v3 : IVec S_ 1 := (fun x v => Host.reduce IntOp.andi x v reducesTo_S64x8192x32_S_d0_1_2 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_arg9 main_arg10 main_v13 main_v16
-- ==== Kernel.lean ====
abbrev S64x8192x32 : Shape := ⟨3, ![64, 8192, 32]⟩
abbrev S64x16 : Shape := ⟨2, ![64, 16]⟩
abbrev S16x32 : Shape := ⟨2, ![16, 32]⟩
abbrev S16x16 : Shape := ⟨2, ![16, 16]⟩
abbrev S32x16 : Shape := ⟨2, ![32, 16]⟩
abbrev S16 : Shape := ⟨1, ![16]⟩
abbrev S16x48 : Shape := ⟨2, ![16, 48]⟩
abbrev S8x1024x32 : Shape := ⟨3, ![8, 1024, 32]⟩
abbrev S8x16 : Shape := ⟨2, ![8, 16]⟩
abbrev S8192x32 : Shape := ⟨2, ![8192, 32]⟩
abbrev S8192x16 : Shape := ⟨2, ![8192, 16]⟩
abbrev S8x1024x16 : Shape := ⟨3, ![8, 1024, 16]⟩
abbrev S1x16 : Shape := ⟨2, ![1, 16]⟩
abbrev S8x1x16 : Shape := ⟨3, ![8, 1, 16]⟩
abbrev S1x1x16 : Shape := ⟨3, ![1, 1, 16]⟩

abbrev nBuf : Space → Nat
  | .hbm => 13
  | .vmem => 17
  | .smem => 0
  | _ => 0

abbrev bufTy : (tb : Table) → Fin (tcTables nBuf tb) → BufTy
  | .hbm, ⟨0, _⟩ => ⟨S64x8192x32, .f32⟩
  | .hbm, ⟨1, _⟩ => ⟨S64x16, .f32⟩
  | .hbm, ⟨2, _⟩ => ⟨S16x32, .f32⟩
  | .hbm, ⟨3, _⟩ => ⟨S16x16, .f32⟩
  | .hbm, ⟨4, _⟩ => ⟨S32x16, .f32⟩
  | .hbm, ⟨5, _⟩ => ⟨S16x32, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x48, .f32⟩
  | .hbm, ⟨10, _⟩ => ⟨S16, .f32⟩
  | .hbm, ⟨11, _⟩ => ⟨S64x8192x32, .f32⟩
  | .hbm, ⟨12, _⟩ => ⟨S64x16, .f32⟩
  | .local _ .vmem, ⟨0, _⟩ => ⟨S8x1024x32, .f32⟩
  | .local _ .vmem, ⟨1, _⟩ => ⟨S8x1024x32, .f32⟩
  | .local _ .vmem, ⟨2, _⟩ => ⟨S8x16, .f32⟩
  | .local _ .vmem, ⟨3, _⟩ => ⟨S8x16, .f32⟩
  | .local _ .vmem, ⟨4, _⟩ => ⟨S16x32, .f32⟩
  | .local _ .vmem, ⟨5, _⟩ => ⟨S16x16, .f32⟩
  | .local _ .vmem, ⟨6, _⟩ => ⟨S32x16, .f32⟩
  | .local _ .vmem, ⟨7, _⟩ => ⟨S16x32, .f32⟩
  | .local _ .vmem, ⟨8, _⟩ => ⟨S16, .f32⟩
  | .local _ .vmem, ⟨9, _⟩ => ⟨S16x16, .f32⟩
  | .local _ .vmem, ⟨10, _⟩ => ⟨S16, .f32⟩
  | .local _ .vmem, ⟨11, _⟩ => ⟨S16x48, .f32⟩
  | .local _ .vmem, ⟨12, _⟩ => ⟨S16, .f32⟩
  | .local _ .vmem, ⟨13, _⟩ => ⟨S8x1024x32, .f32⟩
  | .local _ .vmem, ⟨14, _⟩ => ⟨S8x1024x32, .f32⟩
  | .local _ .vmem, ⟨15, _⟩ => ⟨S8x16, .f32⟩
  | .local _ .vmem, ⟨16, _⟩ => ⟨S8x16, .f32⟩
  | _, _ => ⟨S64x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c7_i32 : BitVec 32 := 7#32
  let v70 : BitVec 1 := Scalar.cmpi .eq arg1 c7_i32
  let v71 : BitVec 32 := Scalar.extui v70
  let c0_i32 : BitVec 32 := 0#32
  let v72 : BitVec 1 := Scalar.cmpi .ne v71 c0_i32
  v72

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x1024x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  inb_S8x1024x32_S8x1024x32_0_0_0 : ∀ a, (![0, 0, 0] : Fin 3 → Nat) a + S8x1024x32.size a ≤ S8x1024x32.size a
  h_S8x1024x32 : 0 < S8x1024x32.numel
  inb_S8x16_S8x16_0_0 : ∀ a, (![0, 0] : Fin 2 → Nat) a + S8x16.size a ≤ S8x16.size a
  h_S8x16 : 0 < S8x16.numel
  shapeCasts_S8x1024x32_S8192x32 : S8x1024x32.ShapeCasts S8192x32
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S16x16_S16x16_0_0 : ∀ a, (![0, 0] : Fin 2 → Nat) a + S16x16.size a ≤ S16x16.size a
  h_S16x16 : 0 < S16x16.numel
  inb_S32x16_S32x16_0_0 : ∀ a, (![0, 0] : Fin 2 → Nat) a + S32x16.size a ≤ S32x16.size a
  h_S32x16 : 0 < S32x16.numel
  inb_S16x48_S16x48_0_0 : ∀ a, (![0, 0] : Fin 2 → Nat) a + S16x48.size a ≤ S16x48.size a
  h_S16x48 : 0 < S16x48.numel
  inb_S16_S16_0 : ∀ a, (![0] : Fin 1 → Nat) a + S16.size a ≤ S16.size a
  h_S16 : 0 < S16.numel
  slices_S16x48_o0_0_S16x32 : S16x48.Slices ![0, 0] S16x32
  slices_S16x48_o0_32_S16x16 : S16x48.Slices ![0, 32] S16x16
  transposes_S16x32_p1_0_S32x16 : S16x32.Transposes [1, 0] S32x16
  shapeCasts_S8192x16_S8x1024x16 : S8192x16.ShapeCasts S8x1024x16
  transposes_S16x16_p1_0_S16x16 : S16x16.Transposes [1, 0] S16x16
  shapeCasts_S16_S1x16 : S16.ShapeCasts S1x16
  broadcasts_S1x16_S8x16 : S1x16.Broadcasts S8x16
  shapeCasts_S8x16_S8x1x16 : S8x16.ShapeCasts S8x1x16
  broadcasts_S8x1x16_S8x1024x16 : S8x1x16.Broadcasts S8x1024x16
  shapeCasts_S16_S1x1x16 : S16.ShapeCasts S1x1x16
  broadcasts_S1x1x16_S8x1024x16 : S1x1x16.Broadcasts S8x1024x16
  shapeCasts_S8x1024x16_S8192x16 : S8x1024x16.ShapeCasts S8192x16
  transposes_S32x16_p1_0_S16x32 : S32x16.Transposes [1, 0] S16x32
  shapeCasts_S8192x32_S8x1024x32 : S8192x32.ShapeCasts S8x1024x32
  slices_S8x1024x16_o0_1023_0_S8x1x16 : S8x1024x16.Slices ![0, 1023, 0] S8x1x16
  shapeCasts_S8x1x16_S8x16 : S8x1x16.ShapeCasts S8x16
  dot_S8192x32_S32x16_S8192x16_1_0_0_1_n_n_wf : DotDims.WF S8192x32 S32x16 S8192x16 [1] [0] [0] [1] [] []
  dot_S8x16_S16x16_S8x16_1_0_0_1_n_n_wf : DotDims.WF S8x16 S16x16 S8x16 [1] [0] [0] [1] [] []
  dot_S8192x16_S16x32_S8192x32_1_0_0_1_n_n_wf : DotDims.WF S8192x16 S16x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x32.size a ≤ S64x8192x32.size a
  hwx0_0 : ∀ i : grid0.Coords, EltTy.bits .f32 = 32 ∨ (Rect.block (s := S64x8192x32) S8x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S64x16.size a
  hwx0_1 : ∀ i : grid0.Coords, EltTy.bits .f32 = 32 ∨ (Rect.block (s := S64x16) S8x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x48.size a ≤ S16x48.size a
  hwx0_9 : ∀ i : grid0.Coords, EltTy.bits .f32 = 32 ∨ (Rect.block (s := S16x48) S16x48.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1024x32.size a ≤ S64x8192x32.size a
  hwx0_11 : ∀ i : grid0.Coords, EltTy.bits .f32 = 32 ∨ (Rect.block (s := S64x8192x32) S8x1024x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x16.size a ≤ S64x16.size a
  hwx0_12 : ∀ i : grid0.Coords, EltTy.bits .f32 = 32 ∨ (Rect.block (s := S64x16) S8x16.size (cc0_transform_12 i) (hinb0_12 i)).WholeWords (EltTy.packing .f32)

variable [Facts₀]

def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8x16_S16x16_S8x16_1_0_0_1_n_n : DotDims S8x16 S16x16 S8x16 where
  lhsContracting := [1]
  rhsContracting := [0]
  lhsNonContracting := [0]
  rhsNonContracting := [1]
  lhsBatch := []
  rhsBatch := []
  wf := dot_S8x16_S16x16_S8x16_1_0_0_1_n_n_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf

abbrev win0_0 : Pipeline.Window sig grid0 :=
  Pipeline.Window.ofSpec (Memref.whole main_arg0) S8x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x48.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S8x1024x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S8x16.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond1 i == 1#1) | ⟨_ + 13, h⟩ => absurd h (Nat.not_lt.2 (Nat.le_add_left _ _))

class Facts : Prop extends Facts₀ where

variable [Facts]
-- ==== ReferenceIdeal.lean ====
abbrev S64x8192x32 : Shape := ⟨3, ![64, 8192, 32]⟩
abbrev S64x16 : Shape := ⟨2, ![64, 16]⟩
abbrev S16x32 : Shape := ⟨2, ![16, 32]⟩
abbrev S16x16 : Shape := ⟨2, ![16, 16]⟩
abbrev S32x16 : Shape := ⟨2, ![32, 16]⟩
abbrev S16 : Shape := ⟨1, ![16]⟩
abbrev S16x48 : Shape := ⟨2, ![16, 48]⟩
abbrev S64x8192x16 : Shape := ⟨3, ![64, 8192, 16]⟩
abbrev S1x16 : Shape := ⟨2, ![1, 16]⟩
abbrev S64x1x16 : Shape := ⟨3, ![64, 1, 16]⟩
abbrev S_ : Shape := ⟨0, ![]⟩
abbrev S1x1x16 : Shape := ⟨3, ![1, 1, 16]⟩

abbrev nBuf : Space → Nat
  | .hbm => 74
  | .vmem => 0
  | .smem => 0
  | _ => 0

abbrev bufTy : (tb : Table) → Fin (tcTables nBuf tb) → BufTy
  | .hbm, ⟨0, _⟩ => ⟨S64x8192x32, .f32⟩
  | .hbm, ⟨1, _⟩ => ⟨S64x16, .f32⟩
  | .hbm, ⟨2, _⟩ => ⟨S16x32, .f32⟩
  | .hbm, ⟨3, _⟩ => ⟨S16x16, .f32⟩
  | .hbm, ⟨4, _⟩ => ⟨S32x16, .f32⟩
  | .hbm, ⟨5, _⟩ => ⟨S16x32, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x48, .f32⟩
  | .hbm, ⟨10, _⟩ => ⟨S16, .f32⟩
  | .hbm, ⟨11, _⟩ => ⟨S64x8192x16, .f32⟩
  | .hbm, ⟨12, _⟩ => ⟨S16x32, .f32⟩
  | .hbm, ⟨13, _⟩ => ⟨S64x8192x16, .f32⟩
  | .hbm, ⟨14, _⟩ => ⟨S16x16, .f32⟩
  | .hbm, ⟨15, _⟩ => ⟨S16x16, .f32⟩
  | .hbm, ⟨16, _⟩ => ⟨S64x16, .f32⟩
  | .hbm, ⟨17, _⟩ => ⟨S1x16, .f32⟩
  | .hbm, ⟨18, _⟩ => ⟨S64x16, .f32⟩
  | .hbm, ⟨19, _⟩ => ⟨S64x16, .f32⟩
  | .hbm, ⟨20, _⟩ => ⟨S64x1x16, .f32⟩
  | .hbm, ⟨21, _⟩ => ⟨S64x8192x16, .f32⟩
  | .hbm, ⟨22, _⟩ => ⟨S64x8192x16, .f32⟩
  | .hbm, ⟨23, _⟩ => ⟨S64x8192x16, .f32⟩
  | .hbm, ⟨24, _⟩ => ⟨S64x8192x16, .f32⟩
  | .hbm, ⟨25, _⟩ => ⟨S_, .f32⟩
  | .hbm, ⟨26, _⟩ => ⟨S64x8192x16, .f32⟩
  | .hbm, ⟨27, _⟩ => ⟨S64x8192x16, .f32⟩
  | .hbm, ⟨28, _⟩ => ⟨S_, .f32⟩
  | .hbm, ⟨29, _⟩ => ⟨S64x8192x16, .f32⟩
  | .hbm, ⟨30, _⟩ => ⟨S64x8192x16, .f32⟩
  | .hbm, ⟨31, _⟩ => ⟨S_, .f32⟩
  | .hbm, ⟨32, _⟩ => ⟨S64x8192x16, .f32⟩
  | .hbm, ⟨33, _⟩ => ⟨S64x8192x16, .f32⟩
  | .hbm, ⟨34, _⟩ => ⟨S64x8192x16, .f32⟩
  | .hbm, ⟨35, _⟩ => ⟨S16x16, .f32⟩
  | .hbm, ⟨36, _⟩ => ⟨S64x16, .f32⟩
  | .hbm, ⟨37, _⟩ => ⟨S64x16, .f32⟩
  | .hbm, ⟨38, _⟩ => ⟨S64x1x16, .f32⟩
  | .hbm, ⟨39, _⟩ => ⟨S64x8192x16, .f32⟩
  | .hbm, ⟨40, _⟩ => ⟨S64x8192x16, .f32⟩
  | .hbm, ⟨41, _⟩ => ⟨S64x8192x16, .f32⟩
  | .hbm, ⟨42, _⟩ => ⟨S64x8192x16, .f32⟩
  | .hbm, ⟨43, _⟩ => ⟨S1x1x16, .f32⟩
  | .hbm, ⟨44, _⟩ => ⟨S64x8192x16, .f32⟩
  | .hbm, ⟨45, _⟩ => ⟨S64x8192x16, .f32⟩
  | .hbm, ⟨46, _⟩ => ⟨S64x8192x16, .f32⟩
  | .hbm, ⟨47, _⟩ => ⟨S64x8192x16, .f32⟩
  | .hbm, ⟨48, _⟩ => ⟨S_, .f32⟩
  | .hbm, ⟨49, _⟩ => ⟨S64x8192x16, .f32⟩
  | .hbm, ⟨50, _⟩ => ⟨S64x8192x16, .f32⟩
  | .hbm, ⟨51, _⟩ => ⟨S_, .f32⟩
  | .hbm, ⟨52, _⟩ => ⟨S64x8192x16, .f32⟩
  | .hbm, ⟨53, _⟩ => ⟨S64x8192x16, .f32⟩
  | .hbm, ⟨54, _⟩ => ⟨S16x16, .f32⟩
  | .hbm, ⟨55, _⟩ => ⟨S64x16, .f32⟩
  | .hbm, ⟨56, _⟩ => ⟨S1x16, .f32⟩
  | .hbm, ⟨57, _⟩ => ⟨S64x16, .f32⟩
  | .hbm, ⟨58, _⟩ => ⟨S64x16, .f32⟩
  | .hbm, ⟨59, _⟩ => ⟨S64x16, .f32⟩
  | .hbm, ⟨60, _⟩ => ⟨S64x16, .f32⟩
  | .hbm, ⟨61, _⟩ => ⟨S_, .f32⟩
  | .hbm, ⟨62, _⟩ => ⟨S64x16, .f32⟩
  | .hbm, ⟨63, _⟩ => ⟨S64x16, .f32⟩
  | .hbm, ⟨64, _⟩ => ⟨S_, .f32⟩
  | .hbm, ⟨65, _⟩ => ⟨S64x16, .f32⟩
  | .hbm, ⟨66, _⟩ => ⟨S64x16, .f32⟩
  | .hbm, ⟨67, _⟩ => ⟨S64x1x16, .f32⟩
  | .hbm, ⟨68, _⟩ => ⟨S64x8192x16, .f32⟩
  | .hbm, ⟨69, _⟩ => ⟨S64x8192x16, .f32⟩
  | .hbm, ⟨70, _⟩ => ⟨S64x8192x16, .f32⟩
  | .hbm, ⟨71, _⟩ => ⟨S64x8192x32, .f32⟩
  | .hbm, ⟨72, _⟩ => ⟨S64x1x16, .f32⟩
  | .hbm, ⟨73, _⟩ => ⟨S64x16, .f32⟩
  | _, _ => ⟨S64x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  slices_S16x48_S16x32_0_0 : S16x48.Slices ![0, 0] S16x32
  slices_S16x48_S16x16_0_32 : S16x48.Slices ![0, 32] S16x16
  transposes_S16x16_S16x16_1_0 : S16x16.Transposes [1, 0] S16x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S64x16_S64x1x16_0_2 : S64x16.BroadcastsInDim S64x1x16 (![0, 2] : Fin 2 → Fin S64x1x16.rank)
  bcast_S64x1x16_S64x8192x16_0_1_2 : S64x1x16.BroadcastsInDim S64x8192x16 (![0, 1, 2] : Fin 3 → Fin S64x8192x16.rank)
  bcast_S_S64x8192x16 : S_.BroadcastsInDim S64x8192x16 (![] : Fin 0 → Fin S64x8192x16.rank)
  bcast_S16_S1x1x16_2 : S16.BroadcastsInDim S1x1x16 (![2] : Fin 1 → Fin S1x1x16.rank)
  bcast_S1x1x16_S64x8192x16_0_1_2 : S1x1x16.BroadcastsInDim S64x8192x16 (![0, 1, 2] : Fin 3 → Fin S64x8192x16.rank)
  bcast_S_S64x16 : S_.BroadcastsInDim S64x16 (![] : Fin 0 → Fin S64x16.rank)
  slices_S64x8192x16_S64x1x16_0_8191_0 : S64x8192x16.Slices ![0, 8191, 0] S64x1x16
  shapeCasts_S64x1x16_S64x16 : S64x1x16.ShapeCasts S64x16
  dot_S64x8192x32_S16x32_S64x8192x16_2_1_01_0_n_n_wf : DotDims.WF S64x8192x32 S16x32 S64x8192x16 [2] [1] [0, 1] [0] [] []
  dot_S64x16_S16x16_S64x16_1_0_0_1_n_n_wf : DotDims.WF S64x16 S16x16 S64x16 [1] [0] [0] [1] [] []
  dot_S64x8192x16_S32x16_S64x8192x32_2_1_01_0_n_n_wf : DotDims.WF S64x8192x16 S32x16 S64x8192x32 [2] [1] [0, 1] [0] [] []

variable [Facts₀]

def dot_S64x8192x32_S16x32_S64x8192x16_2_1_01_0_n_n : DotDims S64x8192x32 S16x32 S64x8192x16 where
  lhsContracting := [2]
  rhsContracting := [1]
  lhsNonContracting := [0, 1]
  rhsNonContracting := [0]
  lhsBatch := []
  rhsBatch := []
  wf := dot_S64x8192x32_S16x32_S64x8192x16_2_1_01_0_n_n_wf
def dot_S64x16_S16x16_S64x16_1_0_0_1_n_n : DotDims S64x16 S16x16 S64x16 where
  lhsContracting := [1]
  rhsContracting := [0]
  lhsNonContracting := [0]
  rhsNonContracting := [1]
  lhsBatch := []
  rhsBatch := []
  wf := dot_S64x16_S16x16_S64x16_1_0_0_1_n_n_wf
def dot_S64x8192x16_S32x16_S64x8192x32_2_1_01_0_n_n : DotDims S64x8192x16 S32x16 S64x8192x32 where
  lhsContracting := [2]
  rhsContracting := [1]
  lhsNonContracting := [0, 1]
  rhsNonContracting := [0]
  lhsBatch := []
  rhsBatch := []
  wf := dot_S64x8192x16_S32x16_S64x8192x32_2_1_01_0_n_n_wf

class Facts : Prop extends Facts₀ where

variable [Facts]
-- ==== Proof.KernelCases.lean ====
/-
  What one run of the body leaves in its two output buffers.

  The body loads every input buffer whole, stores one value over the whole first output buffer, and — at the last time
  tile only — one value over the whole second output buffer. So whatever the buffers held before, the first output
  buffer ends at the body's first stored value of the inputs' contents, and, where the second store happens, the second
  output buffer ends at the second stored value; a whole-buffer load of a buffer's contents is the contents.
-/
import proofs.«138928_j78262894068472_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Away from the last time tile, the first output buffer ends at the first stored value. -/
theorem early_out (c : Dev nD) (i : grid0.Coords) (arg2 : Memref sig .tc .vmem S8x1024x32 .f32) (harg2 : arg2.IsWhole) (arg3 : Memref sig .tc .vmem S8x16 .f32) (harg3 : arg3.IsWhole) (arg4 : Memref sig .tc .vmem S16x32 .f32) (harg4 : arg4.IsWhole) (arg5 : Memref sig .tc .vmem S16x16 .f32) (harg5 : arg5.IsWhole) (arg6 : Memref sig .tc .vmem S32x16 .f32) (harg6 : arg6.IsWhole) (arg7 : Memref sig .tc .vmem S16x32 .f32) (harg7 : arg7.IsWhole) (arg8 : Memref sig .tc .vmem S16 .f32) (harg8 : arg8.IsWhole) (arg9 : Memref sig .tc .vmem S16x16 .f32) (harg9 : arg9.IsWhole) (arg10 : Memref sig .tc .vmem S16 .f32) (harg10 : arg10.IsWhole) (arg11 : Memref sig .tc .vmem S16x48 .f32) (harg11 : arg11.IsWhole) (arg12 : Memref sig .tc .vmem S16 .f32) (harg12 : arg12.IsWhole) (arg13 : Memref sig .tc .vmem S8x1024x32 .f32) (harg13 : arg13.IsWhole) (arg14 : Memref sig .tc .vmem S8x16 .f32) (harg14 : arg14.IsWhole) (hc0 : ¬cond0_0 i)
    (x0 : Vec F S8x1024x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = k0_pay2 x1 (k0_pay4 x0) (k0_pay5 x1) (k0_pay6 x3) (k0_pay7 x4) (k0_pay8 x5) (k0_pay9 x7) x6 x8 (k0_pay11 x0 x2) (k0_pay12 x0 x9) (k0_pay13 x1 x9 x10) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S8x1024x32) hz3, View.ld_unit_zero (S := S8x16) hz2, View.ld_unit_zero (S := S16x32) hz2,
    View.ld_unit_zero (S := S16x16) hz2, View.ld_unit_zero (S := S32x16) hz2, View.ld_unit_zero (S := S16x48) hz2,
    View.ld_unit_zero (S := S16) hz1]

/-- At the last time tile, the first output buffer ends at the first stored value as well. -/
theorem late_out (c : Dev nD) (i : grid0.Coords) (arg2 : Memref sig .tc .vmem S8x1024x32 .f32) (harg2 : arg2.IsWhole) (arg3 : Memref sig .tc .vmem S8x16 .f32) (harg3 : arg3.IsWhole) (arg4 : Memref sig .tc .vmem S16x32 .f32) (harg4 : arg4.IsWhole) (arg5 : Memref sig .tc .vmem S16x16 .f32) (harg5 : arg5.IsWhole) (arg6 : Memref sig .tc .vmem S32x16 .f32) (harg6 : arg6.IsWhole) (arg7 : Memref sig .tc .vmem S16x32 .f32) (harg7 : arg7.IsWhole) (arg8 : Memref sig .tc .vmem S16 .f32) (harg8 : arg8.IsWhole) (arg9 : Memref sig .tc .vmem S16x16 .f32) (harg9 : arg9.IsWhole) (arg10 : Memref sig .tc .vmem S16 .f32) (harg10 : arg10.IsWhole) (arg11 : Memref sig .tc .vmem S16x48 .f32) (harg11 : arg11.IsWhole) (arg12 : Memref sig .tc .vmem S16 .f32) (harg12 : arg12.IsWhole) (arg13 : Memref sig .tc .vmem S8x1024x32 .f32) (harg13 : arg13.IsWhole) (arg14 : Memref sig .tc .vmem S8x16 .f32) (harg14 : arg14.IsWhole) (hc0 : cond0_0 i)
    (x0 : Vec F S8x1024x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = k0_pay2 x1 (k0_pay4 x0) (k0_pay5 x1) (k0_pay6 x3) (k0_pay7 x4) (k0_pay8 x5) (k0_pay9 x7) x6 x8 (k0_pay11 x0 x2) (k0_pay12 x0 x9) (k0_pay13 x1 x9 x10) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S8x1024x32) hz3, View.ld_unit_zero (S := S8x16) hz2, View.ld_unit_zero (S := S16x32) hz2,
    View.ld_unit_zero (S := S16x16) hz2, View.ld_unit_zero (S := S32x16) hz2, View.ld_unit_zero (S := S16x48) hz2,
    View.ld_unit_zero (S := S16) hz1]

/-- At the last time tile, the second output buffer ends at the second stored value. -/
theorem late_last (c : Dev nD) (i : grid0.Coords) (arg2 : Memref sig .tc .vmem S8x1024x32 .f32) (harg2 : arg2.IsWhole) (arg3 : Memref sig .tc .vmem S8x16 .f32) (harg3 : arg3.IsWhole) (arg4 : Memref sig .tc .vmem S16x32 .f32) (harg4 : arg4.IsWhole) (arg5 : Memref sig .tc .vmem S16x16 .f32) (harg5 : arg5.IsWhole) (arg6 : Memref sig .tc .vmem S32x16 .f32) (harg6 : arg6.IsWhole) (arg7 : Memref sig .tc .vmem S16x32 .f32) (harg7 : arg7.IsWhole) (arg8 : Memref sig .tc .vmem S16 .f32) (harg8 : arg8.IsWhole) (arg9 : Memref sig .tc .vmem S16x16 .f32) (harg9 : arg9.IsWhole) (arg10 : Memref sig .tc .vmem S16 .f32) (harg10 : arg10.IsWhole) (arg11 : Memref sig .tc .vmem S16x48 .f32) (harg11 : arg11.IsWhole) (arg12 : Memref sig .tc .vmem S16 .f32) (harg12 : arg12.IsWhole) (arg13 : Memref sig .tc .vmem S8x1024x32 .f32) (harg13 : arg13.IsWhole) (arg14 : Memref sig .tc .vmem S8x16 .f32) (harg14 : arg14.IsWhole) (hc0 : cond0_0 i)
    (x0 : Vec F S8x1024x32 .f32) (x1 : Vec F S8x16 .f32) (x2 : Vec F S16x32 .f32) (x3 : Vec F S16x16 .f32) (x4 : Vec F S32x16 .f32) (x5 : Vec F S16x32 .f32) (x6 : Vec F S16 .f32) (x7 : Vec F S16x16 .f32) (x8 : Vec F S16 .f32) (x9 : Vec F S16x48 .f32) (x10 : Vec F S16 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = k0_pay3 x1 (k0_pay4 x0) (k0_pay5 x1) (k0_pay6 x3) (k0_pay8 x5) (k0_pay9 x7) x6 x8 (k0_pay11 x0 x2) (k0_pay12 x0 x9) (k0_pay13 x1 x9 x10) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S8x1024x32) hz3, View.ld_unit_zero (S := S8x16) hz2, View.ld_unit_zero (S := S16x32) hz2,
    View.ld_unit_zero (S := S16x16) hz2, View.ld_unit_zero (S := S32x16) hz2, View.ld_unit_zero (S := S16x48) hz2,
    View.ld_unit_zero (S := S16) hz1]

end Cert.KernelIdeal.Cases

end
-- ==== Proof.LayerCell.lean ====
/-
  The gated state-space layer at ONE cell, over the extended reals.

  Fix a batch row and a time step. From that step's input row `xr` (32 numbers) and the batch row's previous state
  `pr` (16 numbers) the layer forms, per state channel `s`,

      delta  = Σ_k xr k · W_in (s, k)
      mix    = (Σ_k pr k · W_s (s, k)) · pr s
      ctx    = Σ_k xr k · W_dc (s, k)  +  (Σ_k pr k · W_dc (s, 32 + k)  +  b_dc s)
      decay  = exp (c · σ ctx),                       c the f32 word of -0.05, σ the logistic function
      h s    = (delta + mix · decay) · σ (Σ_k xr k · W_gx (s, k) + b_gx s) · σ (Σ_k pr k · W_gs (s, k) + b_gs s)

  and the output row is  out d = Σ_s h s · W_out (d, s).  Nothing here depends on any other time step: the previous
  state is only read. The additions and products are written in the order both programs perform them, so that each side
  meets these terms without any rearrangement; the weights are taken as whole matrices indexed by (row, column).
-/
import Idealize.ShloMosaic.PureOps.Ideal
import Idealize.ShloMosaic.Lib.ValueIdx

noncomputable section

namespace Cert.Layer

open Idealize.ShloMosaic Idealize.ShloMosaic.ValueIdx

/-- A real matrix or vector of a literal shape, entry by entry. -/
abbrev Arr (s : Shape) : Type := s.Idx → EReal

abbrev M16x32 : Shape := ⟨2, ![16, 32]⟩
abbrev M16x16 : Shape := ⟨2, ![16, 16]⟩
abbrev M32x16 : Shape := ⟨2, ![32, 16]⟩
abbrev M16x48 : Shape := ⟨2, ![16, 48]⟩
abbrev V16 : Shape := ⟨1, ![16]⟩

/-- The decay scale: the f32 word of -0.05, the same word in both programs (it is never evaluated). -/
def decayScale : EReal := Ideal.ofBits .f32 0xBD4CCCCD#32

/-- Column `k` of the input half of the decay-control matrix (its first 32 columns). -/
def inCol (k : Fin 32) : Fin 48 := ⟨k.val, by have := k.isLt; omega⟩

/-- Column `k` of the state half of the decay-control matrix (its last 16 columns). -/
def stCol (k : Fin 16) : Fin 48 := ⟨32 + k.val, by have := k.isLt; omega⟩

/-- The gated state `h s` of one cell. -/
def state (xr : Fin 32 → EReal) (pr : Fin 16 → EReal) (Win : Arr M16x32) (Ws : Arr M16x16) (Wgx : Arr M16x32)
    (bgx : Arr V16) (Wgs : Arr M16x16) (bgs : Arr V16) (Wdc : Arr M16x48) (bdc : Arr V16) (s : Fin 16) : EReal :=
  ((∑ k : Fin 32, xr k * Win (ix2 s k))
      + ((∑ k : Fin 16, pr k * Ws (ix2 s k)) * pr s)
        * Ideal.exp (decayScale * Ideal.logistic ((∑ k : Fin 32, xr k * Wdc (ix2 s (inCol k)))
            + ((∑ k : Fin 16, pr k * Wdc (ix2 s (stCol k))) + bdc (ix1 s)))))
    * Ideal.logistic ((∑ k : Fin 32, xr k * Wgx (ix2 s k)) + bgx (ix1 s))
    * Ideal.logistic ((∑ k : Fin 16, pr k * Wgs (ix2 s k)) + bgs (ix1 s))

/-- The output row of one cell: the gated state projected by `W_out`. -/
def out (xr : Fin 32 → EReal) (pr : Fin 16 → EReal) (Win : Arr M16x32) (Ws : Arr M16x16) (Wout : Arr M32x16)
    (Wgx : Arr M16x32) (bgx : Arr V16) (Wgs : Arr M16x16) (bgs : Arr V16) (Wdc : Arr M16x48) (bdc : Arr V16)
    (d : Fin 32) : EReal :=
  ∑ s : Fin 16, state xr pr Win Ws Wgx bgx Wgs bgs Wdc bdc s * Wout (ix2 d s)

/-! ## The two results as whole arrays -/

abbrev A64x8192x32 : Shape := ⟨3, ![64, 8192, 32]⟩
abbrev A64x16 : Shape := ⟨2, ![64, 16]⟩

/-- The last of the 8192 time steps. -/
def lastStep : Fin 8192 := ⟨8191, by decide⟩

/-- THE FIRST RESULT: at (batch row, time step, output coordinate), the cell's output row. -/
def outArr (X : Arr A64x8192x32) (P : Arr A64x16) (Win : Arr M16x32) (Ws : Arr M16x16) (Wout : Arr M32x16)
    (Wgx : Arr M16x32) (bgx : Arr V16) (Wgs : Arr M16x16) (bgs : Arr V16) (Wdc : Arr M16x48) (bdc : Arr V16) :
    Arr A64x8192x32 := fun i =>
  out (fun k => X (ix3 (i 0) (i 1) k)) (fun k => P (ix2 (i 0) k)) Win Ws Wout Wgx bgx Wgs bgs Wdc bdc (i 2)

/-- THE SECOND RESULT: at (batch row, channel), the gated state of the last time step. -/
def lastArr (X : Arr A64x8192x32) (P : Arr A64x16) (Win : Arr M16x32) (Ws : Arr M16x16) (Wgx : Arr M16x32)
    (bgx : Arr V16) (Wgs : Arr M16x16) (bgs : Arr V16) (Wdc : Arr M16x48) (bdc : Arr V16) : Arr A64x16 := fun i =>
  state (fun k => X (ix3 (i 0) lastStep k)) (fun k => P (ix2 (i 0) k)) Win Ws Wgx bgx Wgs bgs Wdc bdc (i 1)

theorem outArr_apply (X : Arr A64x8192x32) (P : Arr A64x16) (Win : Arr M16x32) (Ws : Arr M16x16) (Wout : Arr M32x16)
    (Wgx : Arr M16x32) (bgx : Arr V16) (Wgs : Arr M16x16) (bgs : Arr V16) (Wdc : Arr M16x48) (bdc : Arr V16)
    (b : Fin 64) (t : Fin 8192) (d : Fin 32) :
    outArr X P Win Ws Wout Wgx bgx Wgs bgs Wdc bdc (ix3 b t d)
      = out (fun k => X (ix3 b t k)) (fun k => P (ix2 b k)) Win Ws Wout Wgx bgx Wgs bgs Wdc bdc d := rfl

theorem lastArr_apply (X : Arr A64x8192x32) (P : Arr A64x16) (Win : Arr M16x32) (Ws : Arr M16x16) (Wgx : Arr M16x32)
    (bgx : Arr V16) (Wgs : Arr M16x16) (bgs : Arr V16) (Wdc : Arr M16x48) (bdc : Arr V16) (b : Fin 64) (s : Fin 16) :
    lastArr X P Win Ws Wgx bgx Wgs bgs Wdc bdc (ix2 b s)
      = state (fun k => X (ix3 b lastStep k)) (fun k => P (ix2 b k)) Win Ws Wgx bgx Wgs bgs Wdc bdc s := rfl

/-- The cell's output row depends only on the cell's rows and the weights. -/
theorem out_congr {xr xr' : Fin 32 → EReal} {pr pr' : Fin 16 → EReal} {Win Win' : Arr M16x32} {Ws Ws' : Arr M16x16}
    {Wout Wout' : Arr M32x16} {Wgx Wgx' : Arr M16x32} {bgx bgx' : Arr V16} {Wgs Wgs' : Arr M16x16} {bgs bgs' : Arr V16}
    {Wdc Wdc' : Arr M16x48} {bdc bdc' : Arr V16} (h0 : xr = xr') (h1 : pr = pr') (h2 : Win = Win') (h3 : Ws = Ws')
    (h4 : Wout = Wout') (h5 : Wgx = Wgx') (h6 : bgx = bgx') (h7 : Wgs = Wgs') (h8 : bgs = bgs') (h9 : Wdc = Wdc')
    (h10 : bdc = bdc') (d : Fin 32) :
    out xr pr Win Ws Wout Wgx bgx Wgs bgs Wdc bdc d = out xr' pr' Win' Ws' Wout' Wgx' bgx' Wgs' bgs' Wdc' bdc' d := by
  subst h0 h1 h2 h3 h4 h5 h6 h7 h8 h9 h10; rfl

/-- The cell's gated state depends only on the cell's rows and the weights. -/
theorem state_congr {xr xr' : Fin 32 → EReal} {pr pr' : Fin 16 → EReal} {Win Win' : Arr M16x32} {Ws Ws' : Arr M16x16}
    {Wgx Wgx' : Arr M16x32} {bgx bgx' : Arr V16} {Wgs Wgs' : Arr M16x16} {bgs bgs' : Arr V16}
    {Wdc Wdc' : Arr M16x48} {bdc bdc' : Arr V16} (h0 : xr = xr') (h1 : pr = pr') (h2 : Win = Win') (h3 : Ws = Ws')
    (h5 : Wgx = Wgx') (h6 : bgx = bgx') (h7 : Wgs = Wgs') (h8 : bgs = bgs') (h9 : Wdc = Wdc') (h10 : bdc = bdc')
    (s : Fin 16) :
    state xr pr Win Ws Wgx bgx Wgs bgs Wdc bdc s = state xr' pr' Win' Ws' Wgx' bgx' Wgs' bgs' Wdc' bdc' s := by
  subst h0 h1 h2 h3 h5 h6 h7 h8 h9 h10; rfl

end Cert.Layer

end
-- ==== Proof.LayoutAt.lean ====
/-
  Re-laid arrays read at an entry, for the shapes a block of rows meets.

  A block of `a` batch rows by `b` time steps is flattened to `a · b` rows before a matrix product and cut back after
  it; row `p · b + q` of the flat array is cell `(p, q)` of the block. A per-batch-row quantity [a, c] is given a unit
  time axis [a, 1, c] and repeated along it; a per-channel vector [c] is given unit axes and repeated over the block.
  Each statement says which entry of the operand an entry of the result is; the indices are written by coordinates.
-/
import Idealize.ShloMosaic.Lib.Pipeline.Value
import Idealize.ShloMosaic.Lib.ValueIdx

namespace Cert.Layer

open Idealize.ShloMosaic Idealize.ShloMosaic.ValueIdx

variable {α : Type}

/-- Flattening the two leading axes: row `r = p · b + q` of the flat array is cell `(p, q)`. -/
theorem flatten_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- Cutting the flat rows back into cells: cell `(p, q)` is row `r = p · b + q`. -/
theorem unflatten_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- A unit middle axis added: entry `(p, u, k)` is entry `(p, k)`. -/
theorem addMid_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- A unit middle axis dropped: entry `(p, k)` is entry `(p, 0, k)`. -/
theorem dropMid_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A per-row quantity repeated along a middle axis of extent `b > 1`: entry `(p, q, k)` is entry `(p, 0, k)`. -/
theorem repeatMid_apply {a b c : ℕ} (ha : a ≠ 1) (hc : c ≠ 1) (x : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ x h (ix3 p q k) = x (ix3 p (0 : Fin 1) k) := by
  refine broadcastTo_apply x h (ix3 p q k) (ix3 p (0 : Fin 1) k) fun ax => ?_
  match ax with
  | ⟨0, _⟩ => show p.val = if a = 1 then 0 else p.val; rw [if_neg ha]
  | ⟨1, _⟩ => rfl
  | ⟨2, _⟩ => show k.val = if c = 1 then 0 else k.val; rw [if_neg hc]

/-- Two unit axes put in front of a vector: entry `(u, v, k)` is entry `k`. -/
theorem addTwo_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- A per-channel vector repeated over a whole block: entry `(p, q, k)` is entry `(0, 0, k)`. -/
theorem repeatAll_apply {a b c : ℕ} (hc : c ≠ 1) (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ => show k.val = if c = 1 then 0 else k.val; rw [if_neg hc]

end Cert.Layer
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.BlockState.lean ====
/-
  One block of the kernel, entry by entry.

  At a grid point the body holds a block of 8 batch rows by 1024 time steps of the input, the 8 matching rows of the
  previous state, and every weight whole. It flattens the block to 8192 rows, multiplies by each (transposed) weight
  into a zero accumulator, cuts the products back into cells, and combines them pointwise; per-row and per-channel
  quantities are repeated along the axes they do not depend on. Read at cell (p, q) — flat row p · 1024 + q — and
  channel s, the gated state the body computes is the layer's `state` of that cell's input row and of state row p, and
  the block it stores is the layer's `out`; the last time step's state is what the second output's block holds.
  The changes of float format on the way into the products are the identity on the extended reals.
-/
import proofs.«138928_j78262894068472_2_alg».proof.Proof.Gen.KernelIdeal.Skeleton
import proofs.«138928_j78262894068472_2_alg».proof.Proof.LayerCell
import proofs.«138928_j78262894068472_2_alg».proof.Proof.LayoutAt
import proofs.«138928_j78262894068472_2_alg».proof.Proof.LibPlainMatmul
import Idealize.ShloMosaic.Lib.ValueLayout
import Idealize.ShloMosaic.PureOps.Ideal.Laws

noncomputable section

namespace Cert.KernelIdeal.Block

open Cert.KernelIdeal Cert.KernelIdeal.Gen Cert.Layer Idealize.ShloMosaic Idealize.ShloMosaic.ValueIdx

/-- The flat row of cell (p, q) of a block. -/
def row (p : Fin 8) (q : Fin 1024) : Fin 8192 := ⟨p.val * 1024 + q.val, by have := p.isLt; have := q.isLt; omega⟩

/-! ## The matrix products -/

/-- The flattened block times a [32, 16] matrix, cut back into cells: at cell (p, q), channel s, the sum over the
    input coordinate of the flat row's entries times the matrix's column. -/
theorem blockProduct (X : FVec Ideal S8192x32 .bf16) (WT : FVec Ideal S32x16 .bf16) (p : Fin 8) (q : Fin 1024) (s : Fin 16) :
    shapeCast S8x1024x16 (matmul dot_S8192x32_S32x16_S8192x16_1_0_0_1_n_n none X WT
        (constant (F := Ideal) S8192x16 .f32 0x00000000#32)) shapeCasts_S8192x16_S8x1024x16 (ix3 p q s)
      = ∑ k : Fin 32, X (ix2 (row p q) k) * WT (ix2 k s) :=
  (unflatten_apply _ shapeCasts_S8192x16_S8x1024x16 p q s (row p q) rfl).trans
    (Cert.Lib.matmul_plain_zero_apply none X WT (row p q) s)

/-- The 8 state rows times a [16, 16] matrix: at row p, channel s, the sum over the state coordinate. -/
theorem rowProduct (P : FVec Ideal S8x16 .bf16) (WT : FVec Ideal S16x16 .bf16) (p : Fin 8) (s : Fin 16) :
    matmul dot_S8x16_S16x16_S8x16_1_0_0_1_n_n none P WT (constant (F := Ideal) S8x16 .f32 0x00000000#32) (ix2 p s)
      = ∑ k : Fin 16, P (ix2 p k) * WT (ix2 k s) :=
  Cert.Lib.matmul_plain_zero_apply none P WT p s

/-- The flattened input block at flat row (p, q) is the block at cell (p, q). -/
theorem flatInput (x0 : Vec Ideal S8x1024x32 .f32) (p : Fin 8) (q : Fin 1024) (k : Fin 32) :
    k0_pay4 x0 (ix2 (row p q) k) = x0 (ix3 p q k) :=
  flatten_apply x0 shapeCasts_S8x1024x32_S8192x32 (row p q) k p q rfl

/-! ## Quantities repeated along the axes they do not depend on -/

/-- A per-row quantity [8, 16] repeated along the 1024 time steps. -/
theorem alongTime {α : Type} (y : S8x16.Idx → α) (p : Fin 8) (q : Fin 1024) (s : Fin 16) :
    broadcastTo S8x1024x16 (shapeCast S8x1x16 y shapeCasts_S8x16_S8x1x16) broadcasts_S8x1x16_S8x1024x16 (ix3 p q s)
      = y (ix2 p s) :=
  (repeatMid_apply (by decide) (by decide) _ broadcasts_S8x1x16_S8x1024x16 p q s).trans
    (addMid_apply y shapeCasts_S8x16_S8x1x16 p 0 s)

/-- A per-channel vector [16] repeated over the whole block. -/
theorem overBlock {α : Type} (v : S16.Idx → α) (p : Fin 8) (q : Fin 1024) (s : Fin 16) :
    broadcastTo S8x1024x16 (shapeCast S1x1x16 v shapeCasts_S16_S1x1x16) broadcasts_S1x1x16_S8x1024x16 (ix3 p q s)
      = v (ix1 s) :=
  (repeatAll_apply (by decide) _ broadcasts_S1x1x16_S8x1024x16 p q s).trans
    (addTwo_apply v shapeCasts_S16_S1x1x16 0 0 s)

/-- A per-channel vector [16] repeated over the 8 rows. -/
theorem overRows {α : Type} (v : S16.Idx → α) (p : Fin 8) (s : Fin 16) :
    broadcastTo S8x16 (shapeCast S1x16 v shapeCasts_S16_S1x16) broadcasts_S1x16_S8x16 (ix2 p s) = v (ix1 s) :=
  (broadcastTo_1b_ab_apply _ broadcasts_S1x16_S8x16 p s).trans (shapeCast_a_1a_apply v shapeCasts_S16_S1x16 0 s)

/-! ## The weights as the body lays them out -/

/-- A [16, 32] weight transposed for the product: entry (k, s) is the weight's entry (s, k). -/
theorem transposedIn (W : FVec Ideal S16x32 .bf16) (k : Fin 32) (s : Fin 16) :
    transpose S32x16 [1, 0] W transposes_S16x32_p1_0_S32x16 (ix2 k s) = W (ix2 s k) :=
  transpose_ix2_apply W _ k s

/-- A [16, 16] weight transposed for the product: entry (k, s) is the weight's entry (s, k). -/
theorem transposedSt (W : FVec Ideal S16x16 .bf16) (k s : Fin 16) :
    transpose S16x16 [1, 0] W transposes_S16x16_p1_0_S16x16 (ix2 k s) = W (ix2 s k) :=
  transpose_ix2_apply W _ k s

/-- The [32, 16] output projection transposed: entry (s, d) is the weight's entry (d, s). -/
theorem transposedOut (W : FVec Ideal S32x16 .bf16) (s : Fin 16) (d : Fin 32) :
    transpose S16x32 [1, 0] W transposes_S32x16_p1_0_S16x32 (ix2 s d) = W (ix2 d s) :=
  transpose_ix2_apply W _ s d

/-- The input half of the decay-control matrix: its first 32 columns. -/
theorem inputHalf (W : FVec Ideal S16x48 .bf16) (s : Fin 16) (k : Fin 32) :
    extractStridedSlice S16x32 ![0, 0] W slices_S16x48_o0_0_S16x32 (ix2 s k) = W (ix2 s (inCol k)) :=
  slice2_axis1_apply 0 W _ s k (inCol k) (Nat.zero_add _).symm

/-- The state half of the decay-control matrix: its last 16 columns. -/
theorem stateHalf (W : FVec Ideal S16x48 .bf16) (s : Fin 16) (k : Fin 16) :
    extractStridedSlice S16x16 ![0, 32] W slices_S16x48_o0_32_S16x16 (ix2 s k) = W (ix2 s (stCol k)) :=
  slice2_axis1_eq 32 W _ s k

/-! ## The six products, with the weight's layout resolved -/

/-- The block against a [16, 32] weight: at cell (p, q), channel s, the input row times the weight's row s. -/
theorem inProduct (x0 : Vec Ideal S8x1024x32 .f32) (W : FVec Ideal S16x32 .bf16) (p : Fin 8) (q : Fin 1024) (s : Fin 16) :
    shapeCast S8x1024x16 (matmul dot_S8192x32_S32x16_S8192x16_1_0_0_1_n_n none (k0_pay4 x0)
        (transpose S32x16 [1, 0] W transposes_S16x32_p1_0_S32x16)
        (constant (F := Ideal) S8192x16 .f32 0x00000000#32)) shapeCasts_S8192x16_S8x1024x16 (ix3 p q s)
      = ∑ k : Fin 32, x0 (ix3 p q k) * W (ix2 s k) := by
  rw [blockProduct]
  refine Finset.sum_congr rfl fun k _ => ?_
  rw [transposedIn, flatInput]

/-- The state rows against a [16, 16] weight: at row p, channel s, the state row times the weight's row s. -/
theorem stProduct (x1 : Vec Ideal S8x16 .f32) (W : FVec Ideal S16x16 .bf16) (p : Fin 8) (s : Fin 16) :
    matmul dot_S8x16_S16x16_S8x16_1_0_0_1_n_n none (k0_pay5 x1)
        (transpose S16x16 [1, 0] W transposes_S16x16_p1_0_S16x16)
        (constant (F := Ideal) S8x16 .f32 0x00000000#32) (ix2 p s)
      = ∑ k : Fin 16, x1 (ix2 p k) * W (ix2 s k) := by
  rw [rowProduct]
  refine Finset.sum_congr rfl fun k _ => ?_
  rw [transposedSt]
  rfl

/-- The input projection of the block. -/
theorem delta_at (x0 : Vec Ideal S8x1024x32 .f32) (x2 : Vec Ideal S16x32 .f32) (p : Fin 8) (q : Fin 1024) (s : Fin 16) :
    k0_pay11 x0 x2 (ix3 p q s) = ∑ k : Fin 32, x0 (ix3 p q k) * x2 (ix2 s k) := by
  unfold k0_pay11
  exact inProduct x0 _ p q s

/-- The decay control's input part: the block against the first 32 columns of the decay-control matrix. -/
theorem ctxIn_at (x0 : Vec Ideal S8x1024x32 .f32) (x9 : Vec Ideal S16x48 .f32) (p : Fin 8) (q : Fin 1024) (s : Fin 16) :
    k0_pay12 x0 x9 (ix3 p q s) = ∑ k : Fin 32, x0 (ix3 p q k) * x9 (ix2 s (inCol k)) := by
  unfold k0_pay12
  refine (inProduct x0 _ p q s).trans (Finset.sum_congr rfl fun k _ => ?_)
  rw [inputHalf]
  rfl

/-- The decay control's state part, repeated along time: the state rows against the last 16 columns of the
    decay-control matrix, plus the bias. -/
theorem ctxSt_at (x1 : Vec Ideal S8x16 .f32) (x9 : Vec Ideal S16x48 .f32) (x10 : Vec Ideal S16 .f32)
    (p : Fin 8) (q : Fin 1024) (s : Fin 16) :
    k0_pay13 x1 x9 x10 (ix3 p q s) = (∑ k : Fin 16, x1 (ix2 p k) * x9 (ix2 s (stCol k))) + x10 (ix1 s) := by
  unfold k0_pay13
  rw [alongTime]
  refine congrArg₂ (· + ·) ((stProduct x1 _ p s).trans (Finset.sum_congr rfl fun k _ => ?_)) (overRows x10 p s)
  rw [stateHalf]
  rfl

/-! ## The pointwise operations at an entry (definitional on the extended reals) -/

theorem logistic_at {s : Shape} {φ : FTy} (a : FVec Ideal s φ) (i : s.Idx) : logistic a i = Ideal.logistic (a i) := rfl

theorem exp_at {s : Shape} {φ : FTy} (a : FVec Ideal s φ) (i : s.Idx) : exp a i = Ideal.exp (a i) := rfl

/-! ## The body's values -/

/-- THE GATED STATE of the block at cell (p, q), channel s: the layer's `state` of the cell's input row and of state
    row p. Each of the six products is a sum over the contracted coordinate against the weight's row s (the body
    multiplies by the transposed weight); the decay-control matrix is used in two column ranges. -/
theorem state_at (x0 : Vec Ideal S8x1024x32 .f32) (x1 : Vec Ideal S8x16 .f32) (x2 : Vec Ideal S16x32 .f32)
    (x3 : Vec Ideal S16x16 .f32) (x5 : Vec Ideal S16x32 .f32) (x6 : Vec Ideal S16 .f32) (x7 : Vec Ideal S16x16 .f32)
    (x8 : Vec Ideal S16 .f32) (x9 : Vec Ideal S16x48 .f32) (x10 : Vec Ideal S16 .f32)
    (p : Fin 8) (q : Fin 1024) (s : Fin 16) :
    k0_pay1 x1 (k0_pay4 x0) (k0_pay5 x1) (k0_pay6 x3) (k0_pay8 x5) (k0_pay9 x7) x6 x8 (k0_pay11 x0 x2)
        (k0_pay12 x0 x9) (k0_pay13 x1 x9 x10) (ix3 p q s)
      = state (fun k => x0 (ix3 p q k)) (fun k => x1 (ix2 p k)) x2 x3 x5 x6 x7 x8 x9 x10 s := by
  unfold k0_pay1 state
  simp only [mulf_apply, addf_apply, logistic_at, exp_at, broadcast_apply, alongTime, overBlock, overRows]
  rw [delta_at, ctxIn_at, ctxSt_at, inProduct, stProduct, stProduct]
  rfl

/-- THE STORED BLOCK at cell (p, q), output coordinate d: the layer's `out` — the gated state, flattened, times the
    transposed output projection, cut back into cells. -/
theorem out_at (x0 : Vec Ideal S8x1024x32 .f32) (x1 : Vec Ideal S8x16 .f32) (x2 : Vec Ideal S16x32 .f32)
    (x3 : Vec Ideal S16x16 .f32) (x4 : Vec Ideal S32x16 .f32) (x5 : Vec Ideal S16x32 .f32) (x6 : Vec Ideal S16 .f32)
    (x7 : Vec Ideal S16x16 .f32) (x8 : Vec Ideal S16 .f32) (x9 : Vec Ideal S16x48 .f32) (x10 : Vec Ideal S16 .f32)
    (p : Fin 8) (q : Fin 1024) (d : Fin 32) :
    k0_pay2 x1 (k0_pay4 x0) (k0_pay5 x1) (k0_pay6 x3) (k0_pay7 x4) (k0_pay8 x5) (k0_pay9 x7) x6 x8 (k0_pay11 x0 x2)
        (k0_pay12 x0 x9) (k0_pay13 x1 x9 x10) (ix3 p q d)
      = out (fun k => x0 (ix3 p q k)) (fun k => x1 (ix2 p k)) x2 x3 x4 x5 x6 x7 x8 x9 x10 d := by
  unfold k0_pay2 out
  refine (unflatten_apply _ shapeCasts_S8192x32_S8x1024x32 p q d (row p q) rfl).trans ?_
  refine (Cert.Lib.matmul_plain_zero_apply none _ _ (row p q) d).trans ?_
  refine Finset.sum_congr rfl fun s _ => ?_
  refine congrArg₂ (· * ·) ?_ ?_
  · exact (flatten_apply _ shapeCasts_S8x1024x16_S8192x16 (row p q) s p q rfl).trans
      (state_at x0 x1 x2 x3 x5 x6 x7 x8 x9 x10 p q s)
  · exact transposedOut _ s d

/-- THE LAST TIME STEP: the second output's block at row p, channel s, is the gated state of the block's cell
    (p, 1023). -/
theorem last_at (x0 : Vec Ideal S8x1024x32 .f32) (x1 : Vec Ideal S8x16 .f32) (x2 : Vec Ideal S16x32 .f32)
    (x3 : Vec Ideal S16x16 .f32) (x5 : Vec Ideal S16x32 .f32) (x6 : Vec Ideal S16 .f32) (x7 : Vec Ideal S16x16 .f32)
    (x8 : Vec Ideal S16 .f32) (x9 : Vec Ideal S16x48 .f32) (x10 : Vec Ideal S16 .f32)
    (p : Fin 8) (s : Fin 16) (q : Fin 1024) (hq : q.val = 1023) :
    k0_pay3 x1 (k0_pay4 x0) (k0_pay5 x1) (k0_pay6 x3) (k0_pay8 x5) (k0_pay9 x7) x6 x8 (k0_pay11 x0 x2)
        (k0_pay12 x0 x9) (k0_pay13 x1 x9 x10) (ix2 p s)
      = state (fun k => x0 (ix3 p q k)) (fun k => x1 (ix2 p k)) x2 x3 x5 x6 x7 x8 x9 x10 s := by
  unfold k0_pay3
  refine (dropMid_apply _ shapeCasts_S8x1x16_S8x16 p s).trans ?_
  refine (slice3_axis1_apply 1023 _ slices_S8x1024x16_o0_1023_0_S8x1x16 p (0 : Fin 1) s q (hq.trans rfl)).trans ?_
  exact state_at x0 x1 x2 x3 x5 x6 x7 x8 x9 x10 p q s

end Cert.KernelIdeal.Block

end
-- ==== Proof.KernelArrays.lean ====
/-
  From blocks to arrays: what the kernel's two result arrays hold after the run.

  The grid is 8 batch tiles by 8 time tiles, point t = 8 · (batch tile) + (time tile). At point t the input window holds
  rows 8 · (t / 8) … + 7 and time steps 1024 · (t % 8) … + 1023 of the input, the state window rows 8 · (t / 8) … + 7 of
  the previous state, and each weight window its whole array. The first output is written back at every point, to the
  same rows and time steps; the second only at the last time tile (t % 8 = 7), to rows 8 · (t / 8) … + 7. Each written
  block is that block of ONE function of the argument arrays — the layer's first result, and its second — because the
  body's value at a cell is the layer's value of the cell's own rows; the blocks cover both arrays, so the arrays end
  holding those functions.
-/
import proofs.«138928_j78262894068472_2_alg».proof.Proof.Gen.KernelIdeal.Value
import proofs.«138928_j78262894068472_2_alg».proof.Proof.KernelCases
import proofs.«138928_j78262894068472_2_alg».proof.Proof.BlockState

set_option maxRecDepth 16384

noncomputable section

namespace Cert.KernelIdeal.Arrays

open Cert.KernelIdeal Cert.KernelIdeal.Gen Cert.KernelIdeal.Value Cert.Layer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits -/

/-- The moving windows' block indices at point t: batch tile t / 8, time tile t % 8. -/
theorem tiles : ∀ t : Fin cfg0.N,
    (win0_0.index t (0 : Fin 3) = t.val / 8 ∧ win0_0.index t (1 : Fin 3) = t.val % 8 ∧ win0_0.index t (2 : Fin 3) = 0)
  ∧ (win0_1.index t (0 : Fin 2) = t.val / 8 ∧ win0_1.index t (1 : Fin 2) = 0)
  ∧ (win0_11.index t (0 : Fin 3) = t.val / 8 ∧ win0_11.index t (1 : Fin 3) = t.val % 8 ∧ win0_11.index t (2 : Fin 3) = 0)
  ∧ (win0_12.index t (0 : Fin 2) = t.val / 8 ∧ win0_12.index t (1 : Fin 2) = 0) :=
  (by decide +kernel : ∀ t : Fin grid0.N, _)

/-- The weight windows never move. -/
theorem whole : ∀ t : Fin cfg0.N,
    (win0_2.index t (0 : Fin 2) = 0 ∧ win0_2.index t (1 : Fin 2) = 0)
  ∧ (win0_3.index t (0 : Fin 2) = 0 ∧ win0_3.index t (1 : Fin 2) = 0)
  ∧ (win0_4.index t (0 : Fin 2) = 0 ∧ win0_4.index t (1 : Fin 2) = 0)
  ∧ (win0_5.index t (0 : Fin 2) = 0 ∧ win0_5.index t (1 : Fin 2) = 0)
  ∧ (win0_6.index t (0 : Fin 1) = 0)
  ∧ (win0_7.index t (0 : Fin 2) = 0 ∧ win0_7.index t (1 : Fin 2) = 0)
  ∧ (win0_8.index t (0 : Fin 1) = 0)
  ∧ (win0_9.index t (0 : Fin 2) = 0 ∧ win0_9.index t (1 : Fin 2) = 0)
  ∧ (win0_10.index t (0 : Fin 1) = 0) :=
  (by decide +kernel : ∀ t : Fin grid0.N, _)

/-- The input block at point t, cell (p, q): batch row 8 · (t / 8) + p, time step 1024 · (t % 8) + q. -/
theorem inputBlock (c : Dev nD) (t : Fin cfg0.N) (p : Fin 8) (q : Fin 1024) (k : Fin 32) (b : Fin 64) (u : Fin 8192)
    (hb : b.val = t.val / 8 * 8 + p.val) (hu : u.val = t.val % 8 * 1024 + q.val) :
    iblk m c 0 t (ix3 p q k) = m ((c : Thread nD τ).loc main_arg0) (ix3 b u k) := by
  obtain ⟨⟨e0, e1, e2⟩, -, -, -⟩ := tiles t
  unfold iblk
  rw [View.read_apply]
  show V m c main_arg0 _ = m (c.tc.loc main_arg0) _
  unfold V
  congr 1
  funext a
  apply Fin.ext
  match a with
  | ⟨0, _⟩ => show win0_0.index t (0 : Fin 3) * 8 + 1 * p.val = b.val; rw [e0, hb]; omega
  | ⟨1, _⟩ => show win0_0.index t (1 : Fin 3) * 1024 + 1 * q.val = u.val; rw [e1, hu]; omega
  | ⟨2, _⟩ => show win0_0.index t (2 : Fin 3) * 32 + 1 * k.val = k.val; rw [e2]; omega

/-- The state block at point t, row p: batch row 8 · (t / 8) + p. -/
theorem stateBlock (c : Dev nD) (t : Fin cfg0.N) (p : Fin 8) (k : Fin 16) (b : Fin 64)
    (hb : b.val = t.val / 8 * 8 + p.val) :
    iblk m c 1 t (ix2 p k) = m ((c : Thread nD τ).loc main_arg1) (ix2 b k) := by
  obtain ⟨-, ⟨e0, e1⟩, -, -⟩ := tiles t
  unfold iblk
  rw [View.read_apply]
  show V m c main_arg1 _ = m (c.tc.loc main_arg1) _
  unfold V
  congr 1
  funext a
  apply Fin.ext
  match a with
  | ⟨0, _⟩ => show win0_1.index t (0 : Fin 2) * 8 + 1 * p.val = b.val; rw [e0, hb]; omega
  | ⟨1, _⟩ => show win0_1.index t (1 : Fin 2) * 16 + 1 * k.val = k.val; rw [e1]; omega

/-- Window 2's block is its whole array at every point. -/
theorem weight2 (c : Dev nD) (t : Fin cfg0.N) : (iblk m c 2 t : Vec Ideal S16x32 .f32) = m ((c : Thread nD τ).loc main_arg2) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg2 _ = m (c.tc.loc main_arg2) _
  unfold V
  congr 1
  funext a
  apply Fin.ext
  match a with
  | ⟨0, _⟩ => show win0_2.index t (0 : Fin 2) * 16 + 1 * (j 0).val = (j 0).val; rw [z2_0]; omega
  | ⟨1, _⟩ => show win0_2.index t (1 : Fin 2) * 32 + 1 * (j 1).val = (j 1).val; rw [z2_1]; omega

/-- Window 3's block is its whole array at every point. -/
theorem weight3 (c : Dev nD) (t : Fin cfg0.N) : (iblk m c 3 t : Vec Ideal S16x16 .f32) = m ((c : Thread nD τ).loc main_arg3) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg3 _ = m (c.tc.loc main_arg3) _
  unfold V
  congr 1
  funext a
  apply Fin.ext
  match a with
  | ⟨0, _⟩ => show win0_3.index t (0 : Fin 2) * 16 + 1 * (j 0).val = (j 0).val; rw [z3_0]; omega
  | ⟨1, _⟩ => show win0_3.index t (1 : Fin 2) * 16 + 1 * (j 1).val = (j 1).val; rw [z3_1]; omega

/-- Window 4's block is its whole array at every point. -/
theorem weight4 (c : Dev nD) (t : Fin cfg0.N) : (iblk m c 4 t : Vec Ideal S32x16 .f32) = m ((c : Thread nD τ).loc main_arg4) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg4 _ = m (c.tc.loc main_arg4) _
  unfold V
  congr 1
  funext a
  apply Fin.ext
  match a with
  | ⟨0, _⟩ => show win0_4.index t (0 : Fin 2) * 32 + 1 * (j 0).val = (j 0).val; rw [z4_0]; omega
  | ⟨1, _⟩ => show win0_4.index t (1 : Fin 2) * 16 + 1 * (j 1).val = (j 1).val; rw [z4_1]; omega

/-- Window 5's block is its whole array at every point. -/
theorem weight5 (c : Dev nD) (t : Fin cfg0.N) : (iblk m c 5 t : Vec Ideal S16x32 .f32) = m ((c : Thread nD τ).loc main_arg5) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg5 _ = m (c.tc.loc main_arg5) _
  unfold V
  congr 1
  funext a
  apply Fin.ext
  match a with
  | ⟨0, _⟩ => show win0_5.index t (0 : Fin 2) * 16 + 1 * (j 0).val = (j 0).val; rw [z5_0]; omega
  | ⟨1, _⟩ => show win0_5.index t (1 : Fin 2) * 32 + 1 * (j 1).val = (j 1).val; rw [z5_1]; omega

/-- Window 6's block is its whole array at every point. -/
theorem weight6 (c : Dev nD) (t : Fin cfg0.N) : (iblk m c 6 t : Vec Ideal S16 .f32) = m ((c : Thread nD τ).loc main_arg6) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg6 _ = m (c.tc.loc main_arg6) _
  unfold V
  congr 1
  funext a
  apply Fin.ext
  match a with
  | ⟨0, _⟩ => show win0_6.index t (0 : Fin 1) * 16 + 1 * (j 0).val = (j 0).val; rw [z6_0]; omega

/-- Window 7's block is its whole array at every point. -/
theorem weight7 (c : Dev nD) (t : Fin cfg0.N) : (iblk m c 7 t : Vec Ideal S16x16 .f32) = m ((c : Thread nD τ).loc main_arg7) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg7 _ = m (c.tc.loc main_arg7) _
  unfold V
  congr 1
  funext a
  apply Fin.ext
  match a with
  | ⟨0, _⟩ => show win0_7.index t (0 : Fin 2) * 16 + 1 * (j 0).val = (j 0).val; rw [z7_0]; omega
  | ⟨1, _⟩ => show win0_7.index t (1 : Fin 2) * 16 + 1 * (j 1).val = (j 1).val; rw [z7_1]; omega

/-- Window 8's block is its whole array at every point. -/
theorem weight8 (c : Dev nD) (t : Fin cfg0.N) : (iblk m c 8 t : Vec Ideal S16 .f32) = m ((c : Thread nD τ).loc main_arg8) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg8 _ = m (c.tc.loc main_arg8) _
  unfold V
  congr 1
  funext a
  apply Fin.ext
  match a with
  | ⟨0, _⟩ => show win0_8.index t (0 : Fin 1) * 16 + 1 * (j 0).val = (j 0).val; rw [z8_0]; omega

/-- Window 9's block is its whole array at every point. -/
theorem weight9 (c : Dev nD) (t : Fin cfg0.N) : (iblk m c 9 t : Vec Ideal S16x48 .f32) = m ((c : Thread nD τ).loc main_arg9) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg9 _ = m (c.tc.loc main_arg9) _
  unfold V
  congr 1
  funext a
  apply Fin.ext
  match a with
  | ⟨0, _⟩ => show win0_9.index t (0 : Fin 2) * 16 + 1 * (j 0).val = (j 0).val; rw [z9_0]; omega
  | ⟨1, _⟩ => show win0_9.index t (1 : Fin 2) * 48 + 1 * (j 1).val = (j 1).val; rw [z9_1]; omega

/-- Window 10's block is its whole array at every point. -/
theorem weight10 (c : Dev nD) (t : Fin cfg0.N) : (iblk m c 10 t : Vec Ideal S16 .f32) = m ((c : Thread nD τ).loc main_arg10) := by
  obtain ⟨⟨z2_0, z2_1⟩, ⟨z3_0, z3_1⟩, ⟨z4_0, z4_1⟩, ⟨z5_0, z5_1⟩, z6_0, ⟨z7_0, z7_1⟩, z8_0, ⟨z9_0, z9_1⟩, z10_0⟩ := whole t
  funext j
  unfold iblk
  rw [View.read_apply]
  show V m c main_arg10 _ = m (c.tc.loc main_arg10) _
  unfold V
  congr 1
  funext a
  apply Fin.ext
  match a with
  | ⟨0, _⟩ => show win0_10.index t (0 : Fin 1) * 16 + 1 * (j 0).val = (j 0).val; rw [z10_0]; omega

/-- Cell (p, q, d) of the first output's block at point t sits at batch row 8 · (t / 8) + p, time step
    1024 · (t % 8) + q. -/
theorem firstCell (t : Fin cfg0.N) (p : Fin 8) (q : Fin 1024) (d : Fin 32) (b : Fin 64) (u : Fin 8192)
    (hb : b.val = t.val / 8 * 8 + p.val) (hu : u.val = t.val % 8 * 1024 + q.val) :
    ((cfg0.win 11).blk t).view.emb (ix3 p q d) = ix3 b u d := by
  obtain ⟨-, -, ⟨e0, e1, e2⟩, -⟩ := tiles t
  funext a
  apply Fin.ext
  match a with
  | ⟨0, _⟩ => show win0_11.index t (0 : Fin 3) * 8 + 1 * p.val = b.val; rw [e0, hb]; omega
  | ⟨1, _⟩ => show win0_11.index t (1 : Fin 3) * 1024 + 1 * q.val = u.val; rw [e1, hu]; omega
  | ⟨2, _⟩ => show win0_11.index t (2 : Fin 3) * 32 + 1 * d.val = d.val; rw [e2]; omega

/-- Entry (p, s) of the second output's block at point t sits at batch row 8 · (t / 8) + p. -/
theorem lastCell (t : Fin cfg0.N) (p : Fin 8) (s : Fin 16) (b : Fin 64) (hb : b.val = t.val / 8 * 8 + p.val) :
    ((cfg0.win 12).blk t).view.emb (ix2 p s) = ix2 b s := by
  obtain ⟨-, -, -, ⟨e0, e1⟩⟩ := tiles t
  funext a
  apply Fin.ext
  match a with
  | ⟨0, _⟩ => show win0_12.index t (0 : Fin 2) * 8 + 1 * p.val = b.val; rw [e0, hb]; omega
  | ⟨1, _⟩ => show win0_12.index t (1 : Fin 2) * 16 + 1 * s.val = s.val; rw [e1]; omega

/-! ## The two result arrays, as functions of the argument arrays -/

/-- The layer's first result of the arrays as launched. -/
def first (c : Dev nD) : Buf (Elt Ideal) ((c : Thread nD τ).loc main_v0_0) :=
  outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The layer's second result of the arrays as launched. -/
def last (c : Dev nD) : Buf (Elt Ideal) ((c : Thread nD τ).loc main_v0_1) :=
  lastArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## What each point writes back -/

/-- Whichever case the point is in, what it writes back to the first output is the body's first stored value of the
    point's input blocks. -/
theorem flushed_first_pay (c : Dev nD) (t : Fin cfg0.N) :
    (dats m 0 c).flushed 11 t = (cfg0.win 11).cut (grid0.coords t)
      (k0_pay2 (iblk m c 1 t) (k0_pay4 (iblk m c 0 t)) (k0_pay5 (iblk m c 1 t)) (k0_pay6 (iblk m c 3 t)) (k0_pay7 (iblk m c 4 t)) (k0_pay8 (iblk m c 5 t)) (k0_pay9 (iblk m c 7 t)) (iblk m c 6 t) (iblk m c 8 t) (k0_pay11 (iblk m c 0 t) (iblk m c 2 t)) (k0_pay12 (iblk m c 0 t) (iblk m c 9 t)) (k0_pay13 (iblk m c 1 t) (iblk m c 9 t) (iblk m c 10 t))) := by
  by_cases h0 : t.val % 8 = 7
  · exact (flushed11_B m c t h0).trans (congrArg ((cfg0.win 11).cut (grid0.coords t))
      (Cases.late_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)))
  · exact (flushed11_A m c t h0).trans (congrArg ((cfg0.win 11).cut (grid0.coords t))
      (Cases.early_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)))

/-- WHAT POINT t WRITES BACK to the first output is its block of the layer's first result. -/
theorem flushed_first (c : Dev nD) (t : Fin cfg0.N) :
    (dats m 0 c).flushed 11 t = ((cfg0.win 11).blk t).view.read (Elt Ideal) (first m c) := by
  rw [flushed_first_pay]
  funext y
  obtain ⟨p, q, d, rfl⟩ : ∃ (p : Fin 8) (q : Fin 1024) (d : Fin 32), y = ix3 p q d := ⟨y 0, y 1, y 2, eq_ix3 y⟩
  have hp := p.isLt
  have hq := q.isLt
  have hN : t.val < 64 := lt_of_lt_of_eq t.isLt (show cfg0.N = 64 from N_0)
  rw [View.read_apply, firstCell t p q d ⟨t.val / 8 * 8 + p.val, by omega⟩ ⟨t.val % 8 * 1024 + q.val, by omega⟩ rfl rfl]
  show (k0_pay2 (iblk m c 1 t) (k0_pay4 (iblk m c 0 t)) (k0_pay5 (iblk m c 1 t)) (k0_pay6 (iblk m c 3 t)) (k0_pay7 (iblk m c 4 t)) (k0_pay8 (iblk m c 5 t)) (k0_pay9 (iblk m c 7 t)) (iblk m c 6 t) (iblk m c 8 t) (k0_pay11 (iblk m c 0 t) (iblk m c 2 t)) (k0_pay12 (iblk m c 0 t) (iblk m c 9 t)) (k0_pay13 (iblk m c 1 t) (iblk m c 9 t) (iblk m c 10 t))) (ix3 p q d) = first m c (ix3 _ _ d)
  refine (Block.out_at (iblk m c 0 t) (iblk m c 1 t) (iblk m c 2 t) (iblk m c 3 t) (iblk m c 4 t) (iblk m c 5 t) (iblk m c 6 t) (iblk m c 7 t) (iblk m c 8 t) (iblk m c 9 t) (iblk m c 10 t) p q d).trans ?_
  exact out_congr (funext fun k => inputBlock m c t p q k _ _ rfl rfl) (funext fun k => stateBlock m c t p k _ rfl)
    (weight2 m c t) (weight3 m c t) (weight4 m c t) (weight5 m c t) (weight6 m c t) (weight7 m c t) (weight8 m c t)
    (weight9 m c t) (weight10 m c t) d

/-- WHAT A LAST-TILE POINT WRITES BACK to the second output is its block of the layer's second result. -/
theorem flushed_last (c : Dev nD) (t : Fin cfg0.N) (hf : (cfg0.win 12).flush t = true) :
    (dats m 0 c).flushed 12 t = ((cfg0.win 12).blk t).view.read (Elt Ideal) (last m c) := by
  have h0 : t.val % 8 = 7 := (flush0_12 t).mp hf
  refine ((flushed12_B m c t h0).trans (congrArg ((cfg0.win 12).cut (grid0.coords t))
    (Cases.late_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)))).trans ?_
  funext y
  obtain ⟨p, s, rfl⟩ : ∃ (p : Fin 8) (s : Fin 16), y = ix2 p s := ⟨y 0, y 1, eq_ix2 y⟩
  have hp := p.isLt
  have hN : t.val < 64 := lt_of_lt_of_eq t.isLt (show cfg0.N = 64 from N_0)
  rw [View.read_apply, lastCell t p s ⟨t.val / 8 * 8 + p.val, by omega⟩ rfl]
  show (k0_pay3 (iblk m c 1 t) (k0_pay4 (iblk m c 0 t)) (k0_pay5 (iblk m c 1 t)) (k0_pay6 (iblk m c 3 t)) (k0_pay8 (iblk m c 5 t)) (k0_pay9 (iblk m c 7 t)) (iblk m c 6 t) (iblk m c 8 t) (k0_pay11 (iblk m c 0 t) (iblk m c 2 t)) (k0_pay12 (iblk m c 0 t) (iblk m c 9 t)) (k0_pay13 (iblk m c 1 t) (iblk m c 9 t) (iblk m c 10 t))) (ix2 p s) = last m c (ix2 _ s)
  refine (Block.last_at (iblk m c 0 t) (iblk m c 1 t) (iblk m c 2 t) (iblk m c 3 t) (iblk m c 5 t) (iblk m c 6 t) (iblk m c 7 t) (iblk m c 8 t) (iblk m c 9 t) (iblk m c 10 t) p s ⟨1023, by decide⟩ rfl).trans ?_
  exact state_congr (funext fun k => inputBlock m c t p ⟨1023, by decide⟩ k _ lastStep rfl (by show 8191 = t.val % 8 * 1024 + 1023; omega))
    (funext fun k => stateBlock m c t p k _ rfl)
    (weight2 m c t) (weight3 m c t) (weight5 m c t) (weight6 m c t) (weight7 m c t) (weight8 m c t)
    (weight9 m c t) (weight10 m c t) s

/-! ## The blocks cover the arrays -/

/-- Every entry of the first output is in the block of the point of its batch tile and time tile. -/
theorem cover_first (i : S64x8192x32.Idx) :
    ∃ t : Fin cfg0.N, (cfg0.win 11).flush t = true ∧ i ∈ ((cfg0.win 11).blk t).view.set := by
  have h0 : (i 0).val < 64 := (i 0).isLt
  have h1 : (i 1).val < 8192 := (i 1).isLt
  have h2 : (i 2).val < 32 := (i 2).isLt
  have hN : cfg0.N = 64 := N_0
  let t : Fin cfg0.N := ⟨(i 0).val / 8 * 8 + (i 1).val / 1024, by rw [hN]; omega⟩
  have ht : t.val = (i 0).val / 8 * 8 + (i 1).val / 1024 := rfl
  obtain ⟨-, -, ⟨e0, e1, e2⟩, -⟩ := tiles t
  refine ⟨t, flush0_11 t, ?_⟩
  show i ∈ ((View.whole main_v0_0).slice (win0_11.rect t)).set
  rw [View.set_slice_whole, Rect.mem_set_unit]
  intro a
  match a with
  | ⟨0, _⟩ => show win0_11.index t (0 : Fin 3) * 8 ≤ (i 0).val ∧ (i 0).val < win0_11.index t (0 : Fin 3) * 8 + 8
              rw [e0, ht]; omega
  | ⟨1, _⟩ => show win0_11.index t (1 : Fin 3) * 1024 ≤ (i 1).val ∧ (i 1).val < win0_11.index t (1 : Fin 3) * 1024 + 1024
              rw [e1, ht]; omega
  | ⟨2, _⟩ => show win0_11.index t (2 : Fin 3) * 32 ≤ (i 2).val ∧ (i 2).val < win0_11.index t (2 : Fin 3) * 32 + 32
              rw [e2]; omega

/-- Every entry of the second output is in the block of the last-tile point of its batch tile. -/
theorem cover_last (i : S64x16.Idx) :
    ∃ t : Fin cfg0.N, (cfg0.win 12).flush t = true ∧ i ∈ ((cfg0.win 12).blk t).view.set := by
  have h0 : (i 0).val < 64 := (i 0).isLt
  have h1 : (i 1).val < 16 := (i 1).isLt
  have hN : cfg0.N = 64 := N_0
  let t : Fin cfg0.N := ⟨(i 0).val / 8 * 8 + 7, by rw [hN]; omega⟩
  have ht : t.val = (i 0).val / 8 * 8 + 7 := rfl
  obtain ⟨-, -, -, ⟨e0, e1⟩⟩ := tiles t
  refine ⟨t, (flush0_12 t).mpr (by rw [ht]; omega), ?_⟩
  show i ∈ ((View.whole main_v0_1).slice (win0_12.rect t)).set
  rw [View.set_slice_whole, Rect.mem_set_unit]
  intro a
  match a with
  | ⟨0, _⟩ => show win0_12.index t (0 : Fin 2) * 8 ≤ (i 0).val ∧ (i 0).val < win0_12.index t (0 : Fin 2) * 8 + 8
              rw [e0, ht]; omega
  | ⟨1, _⟩ => show win0_12.index t (1 : Fin 2) * 16 ≤ (i 1).val ∧ (i 1).val < win0_12.index t (1 : Fin 2) * 16 + 16
              rw [e1]; omega

/-! ## The arrays after the run -/

theorem final_first (c : Dev nD) : (dats m 0 c).arrAt 11 cfg0.N = first m c :=
  (dats m 0 c).arrAt_eq_of_cover 11 (first m c) (fun t _ => flushed_first m c t) cover_first

theorem final_last (c : Dev nD) : (dats m 0 c).arrAt 12 cfg0.N = last m c :=
  (dats m 0 c).arrAt_eq_of_cover 12 (last m c) (flushed_last m c) cover_last

/-- THE KERNEL'S RUN, READ: both result arrays at the layer's two results of the arguments, the arguments unchanged. -/
theorem run : θ_run defs (onTc (τ := τ) (main (F := Ideal))) ⟨m, fun _ => 0, ρ⟩ fun r => ∀ c : Dev nD,
      r.2.mem ((c : Thread nD τ).loc main_v0_0) = first m c
      ∧ r.2.mem ((c : Thread nD τ).loc main_v0_1) = last m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_first m c), (h c).2.1.trans (final_last m c), (h c).2.2⟩)
    (Value.run_blocks m ρ)

end Cert.KernelIdeal.Arrays

end
-- ==== Proof.HostState.lean ====
/-
  The reference, entry by entry.

  The reference computes the whole layer with jnp on the host: contractions of the input [64, 8192, 32] and of the
  previous state [64, 16] against the weights' rows, per-row and per-channel quantities broadcast over time, the logistic
  function spelt as 1 / (1 + exp (-y)), and the products in the same order as the kernel's. Read at batch row b, time
  step t, channel s, its gated state is the layer's `state` of that cell; its first result is the layer's `out`, its
  second the gated state at the last time step, t = 8191. The constant 1.0 is the real number one, and on the extended
  reals 1 / (1 + exp (-y)) is the logistic function by definition.
-/
import proofs.«138928_j78262894068472_2_alg».proof.Proof.Gen.ReferenceIdeal.Read
import proofs.«138928_j78262894068472_2_alg».proof.Proof.LayerCell
import Idealize.ShloMosaic.Lib.IdealHost

noncomputable section

namespace Cert.ReferenceIdeal.Host

open Cert.ReferenceIdeal Cert.ReferenceIdeal.Read Cert.Layer Idealize.ShloMosaic Idealize.ShloMosaic.ValueIdx

/-- Two indices with the same coordinates, axis by axis: rank one, two and three. -/
macro "same_index1" : tactic => `(tactic| (funext a; apply Fin.ext; match a with | ⟨0, _⟩ => rfl))
macro "same_index2" : tactic => `(tactic| (funext a; apply Fin.ext; match a with | ⟨0, _⟩ => rfl | ⟨1, _⟩ => rfl))
macro "same_index3" : tactic =>
  `(tactic| (funext a; apply Fin.ext; match a with | ⟨0, _⟩ => rfl | ⟨1, _⟩ => rfl | ⟨2, _⟩ => rfl))

/-- The contents of an f32 array of shape `s` on the extended reals. -/
abbrev 𝔸 (s : Shape) : Type := (⟨s, .f32⟩ : BufTy).Contents (Elt Ideal)

/-! ## The contractions -/

/-- The input against `W_in`: the cell's input row times the weight's row s. -/
theorem inDot_at (X : 𝔸 S64x8192x32) (W : 𝔸 S16x32) (b : Fin 64) (t : Fin 8192) (s : Fin 16) :
    val_main_v0 (F := Ideal) X W (ix3 b t s) = ∑ k : Fin 32, X (ix3 b t k) * W (ix2 s k) :=
  (val_main_v0_apply X W (ix3 b t s)).trans (Finset.sum_congr rfl fun k _ =>
    congrArg₂ (· * ·) (congrArg X (by same_index3)) (congrArg W (by same_index2)))

/-- The input against `W_gx`. -/
theorem gxDot_at (X : 𝔸 S64x8192x32) (W : 𝔸 S16x32) (b : Fin 64) (t : Fin 8192) (s : Fin 16) :
    val_main_v28 (F := Ideal) X W (ix3 b t s) = ∑ k : Fin 32, X (ix3 b t k) * W (ix2 s k) :=
  (val_main_v28_apply X W (ix3 b t s)).trans (Finset.sum_congr rfl fun k _ =>
    congrArg₂ (· * ·) (congrArg X (by same_index3)) (congrArg W (by same_index2)))

/-- The input against the first 32 columns of the decay-control matrix. -/
theorem ctxInDot_at (X : 𝔸 S64x8192x32) (W : 𝔸 S16x48) (b : Fin 64) (t : Fin 8192) (s : Fin 16) :
    val_main_v2 (F := Ideal) X W (ix3 b t s) = ∑ k : Fin 32, X (ix3 b t k) * W (ix2 s (inCol k)) :=
  (val_main_v2_apply X W (ix3 b t s)).trans (Finset.sum_congr rfl fun k _ =>
    congrArg₂ (· * ·) (congrArg X (by same_index3))
      ((val_main_v1_apply W _).trans (congrArg W (by same_index2))))

/-- The previous state against the last 16 columns of the decay-control matrix. -/
theorem ctxStDot_at (P : 𝔸 S64x16) (W : 𝔸 S16x48) (b : Fin 64) (s : Fin 16) :
    val_main_v5 (F := Ideal) P W (ix2 b s) = ∑ k : Fin 16, P (ix2 b k) * W (ix2 s (stCol k)) :=
  (val_main_v5_apply P W (ix2 b s)).trans (Finset.sum_congr rfl fun k _ =>
    congrArg₂ (· * ·) (congrArg P (by same_index2))
      (((val_main_v4_apply W _).trans (val_main_v3_apply W _)).trans (congrArg W (by same_index2))))

/-- The previous state against `W_s`. -/
theorem mixDot_at (P : 𝔸 S64x16) (W : 𝔸 S16x16) (b : Fin 64) (s : Fin 16) :
    val_main_v22 (F := Ideal) P W (ix2 b s) = ∑ k : Fin 16, P (ix2 b k) * W (ix2 s k) :=
  (val_main_v22_apply P W (ix2 b s)).trans (Finset.sum_congr rfl fun k _ =>
    congrArg₂ (· * ·) (congrArg P (by same_index2))
      ((val_main_v21_apply W _).trans (congrArg W (by same_index2))))

/-- The previous state against `W_gs`. -/
theorem gsDot_at (P : 𝔸 S64x16) (W : 𝔸 S16x16) (b : Fin 64) (s : Fin 16) :
    val_main_v39 (F := Ideal) P W (ix2 b s) = ∑ k : Fin 16, P (ix2 b k) * W (ix2 s k) :=
  (val_main_v39_apply P W (ix2 b s)).trans (Finset.sum_congr rfl fun k _ =>
    congrArg₂ (· * ·) (congrArg P (by same_index2))
      ((val_main_v38_apply W _).trans (congrArg W (by same_index2))))

/-! ## The broadcasts and the constants -/

/-- `b_dc` broadcast over the batch rows. -/
theorem bdcRows_at (v : 𝔸 S16) (b : Fin 64) (s : Fin 16) : val_main_v7 (F := Ideal) v (ix2 b s) = v (ix1 s) :=
  ((val_main_v7_apply v _).trans (val_main_v6_apply v _)).trans (congrArg v (by same_index1))

/-- `b_gs` broadcast over the batch rows. -/
theorem bgsRows_at (v : 𝔸 S16) (b : Fin 64) (s : Fin 16) : val_main_v41 (F := Ideal) v (ix2 b s) = v (ix1 s) :=
  ((val_main_v41_apply v _).trans (val_main_v40_apply v _)).trans (congrArg v (by same_index1))

/-- `b_gx` broadcast over batch rows and time. -/
theorem bgxAll_at (v : 𝔸 S16) (b : Fin 64) (t : Fin 8192) (s : Fin 16) :
    val_main_v30 (F := Ideal) v (ix3 b t s) = v (ix1 s) :=
  ((val_main_v30_apply v _).trans (val_main_v29_apply v _)).trans (congrArg v (by same_index1))

/-- The decay control's state part, broadcast over time. -/
theorem ctxSt_at (P : 𝔸 S64x16) (W : 𝔸 S16x48) (v : 𝔸 S16) (b : Fin 64) (t : Fin 8192) (s : Fin 16) :
    val_main_v10 (F := Ideal) P W v (ix3 b t s) = (∑ k : Fin 16, P (ix2 b k) * W (ix2 s (stCol k))) + v (ix1 s) := by
  refine ((val_main_v10_apply P W v _).trans (val_main_v9_apply P W v _)).trans ?_
  refine (congrArg (val_main_v8 (F := Ideal) P W v) (show _ = ix2 b s by same_index2)).trans ?_
  exact congrArg₂ (· + ·) (ctxStDot_at P W b s) (bdcRows_at v b s)

/-- The state mix, broadcast over time. -/
theorem mix_at (P : 𝔸 S64x16) (W : 𝔸 S16x16) (b : Fin 64) (t : Fin 8192) (s : Fin 16) :
    val_main_v25 (F := Ideal) P W (ix3 b t s) = (∑ k : Fin 16, P (ix2 b k) * W (ix2 s k)) * P (ix2 b s) := by
  refine ((val_main_v25_apply P W _).trans (val_main_v24_apply P W _)).trans ?_
  refine (congrArg (val_main_v23 (F := Ideal) P W) (show _ = ix2 b s by same_index2)).trans ?_
  exact congrArg (· * P (ix2 b s)) (mixDot_at P W b s)

theorem one14 (i : S64x8192x16.Idx) : val_main_v14 (F := Ideal) i = 1 := (val_main_v14_apply i).trans Ideal.ofBits_one_f32
theorem one16 (i : S64x8192x16.Idx) : val_main_v16 (F := Ideal) i = 1 := (val_main_v16_apply i).trans Ideal.ofBits_one_f32
theorem one34 (i : S64x8192x16.Idx) : val_main_v34 (F := Ideal) i = 1 := (val_main_v34_apply i).trans Ideal.ofBits_one_f32
theorem one36 (i : S64x8192x16.Idx) : val_main_v36 (F := Ideal) i = 1 := (val_main_v36_apply i).trans Ideal.ofBits_one_f32
theorem one45 (i : S64x16.Idx) : val_main_v45 (F := Ideal) i = 1 := (val_main_v45_apply i).trans Ideal.ofBits_one_f32
theorem one47 (i : S64x16.Idx) : val_main_v47 (F := Ideal) i = 1 := (val_main_v47_apply i).trans Ideal.ofBits_one_f32

/-- The decay scale, broadcast. -/
theorem scale18 (i : S64x8192x16.Idx) : val_main_v18 (F := Ideal) i = decayScale := val_main_v18_apply i

/-! ## The gates and the gated state -/

/-- The state gate of batch row b, broadcast over time. -/
theorem stateGate_at (P : 𝔸 S64x16) (W : 𝔸 S16x16) (v : 𝔸 S16) (b : Fin 64) (t : Fin 8192) (s : Fin 16) :
    val_main_v51 (F := Ideal) P W v (ix3 b t s)
      = Ideal.logistic ((∑ k : Fin 16, P (ix2 b k) * W (ix2 s k)) + v (ix1 s)) := by
  refine ((val_main_v51_apply P W v _).trans (val_main_v49_apply P W v _)).trans ?_
  refine (congrArg (val_main_v48 (F := Ideal) P W v) (show _ = ix2 b s by same_index2)).trans ?_
  show Ideal.div (val_main_v47 (F := Ideal) (ix2 b s)) (val_main_v45 (F := Ideal) (ix2 b s)
      + Ideal.exp (-(val_main_v39 (F := Ideal) P W (ix2 b s) + val_main_v41 (F := Ideal) v (ix2 b s)))) = _
  rw [one47, one45, gsDot_at, bgsRows_at]
  rfl

/-- THE GATED STATE of the reference at batch row b, time step t, channel s. -/
theorem state_at (X : 𝔸 S64x8192x32) (P : 𝔸 S64x16) (Win : 𝔸 S16x32) (Ws : 𝔸 S16x16) (Wgx : 𝔸 S16x32) (bgx : 𝔸 S16)
    (Wgs : 𝔸 S16x16) (bgs : 𝔸 S16) (Wdc : 𝔸 S16x48) (bdc : 𝔸 S16) (b : Fin 64) (t : Fin 8192) (s : Fin 16) :
    val_main_v52 (F := Ideal) X P Win Ws Wgx bgx Wgs bgs Wdc bdc (ix3 b t s)
      = state (fun k => X (ix3 b t k)) (fun k => P (ix2 b k)) Win Ws Wgx bgx Wgs bgs Wdc bdc s := by
  show ((val_main_v0 (F := Ideal) X Win (ix3 b t s)
          + val_main_v25 (F := Ideal) P Ws (ix3 b t s)
            * Ideal.exp (val_main_v18 (F := Ideal) (ix3 b t s)
                * Ideal.div (val_main_v16 (F := Ideal) (ix3 b t s)) (val_main_v14 (F := Ideal) (ix3 b t s)
                    + Ideal.exp (-(val_main_v2 (F := Ideal) X Wdc (ix3 b t s) + val_main_v10 (F := Ideal) P Wdc bdc (ix3 b t s))))))
        * Ideal.div (val_main_v36 (F := Ideal) (ix3 b t s)) (val_main_v34 (F := Ideal) (ix3 b t s)
            + Ideal.exp (-(val_main_v28 (F := Ideal) X Wgx (ix3 b t s) + val_main_v30 (F := Ideal) bgx (ix3 b t s)))))
      * val_main_v51 (F := Ideal) P Wgs bgs (ix3 b t s) = _
  rw [inDot_at, mix_at, scale18, one16, one14, ctxInDot_at, ctxSt_at, one36, one34, gxDot_at, bgxAll_at, stateGate_at]
  rfl

/-- THE FIRST RESULT at batch row b, time step t, output coordinate d: the layer's `out`. -/
theorem out_at (X : 𝔸 S64x8192x32) (P : 𝔸 S64x16) (Win : 𝔸 S16x32) (Ws : 𝔸 S16x16) (Wout : 𝔸 S32x16) (Wgx : 𝔸 S16x32)
    (bgx : 𝔸 S16) (Wgs : 𝔸 S16x16) (bgs : 𝔸 S16) (Wdc : 𝔸 S16x48) (bdc : 𝔸 S16) (b : Fin 64) (t : Fin 8192) (d : Fin 32) :
    val_main_v53 (F := Ideal) X P Win Ws Wout Wgx bgx Wgs bgs Wdc bdc (ix3 b t d)
      = out (fun k => X (ix3 b t k)) (fun k => P (ix2 b k)) Win Ws Wout Wgx bgx Wgs bgs Wdc bdc d :=
  (val_main_v53_apply X P Win Ws Wout Wgx bgx Wgs bgs Wdc bdc (ix3 b t d)).trans (Finset.sum_congr rfl fun s _ =>
    congrArg₂ (· * ·)
      ((congrArg (val_main_v52 (F := Ideal) X P Win Ws Wgx bgx Wgs bgs Wdc bdc) (show _ = ix3 b t s by same_index3)).trans
        (state_at X P Win Ws Wgx bgx Wgs bgs Wdc bdc b t s))
      (congrArg Wout (by same_index2)))

/-- THE SECOND RESULT at batch row b, channel s: the gated state at the last time step. -/
theorem last_at (X : 𝔸 S64x8192x32) (P : 𝔸 S64x16) (Win : 𝔸 S16x32) (Ws : 𝔸 S16x16) (Wgx : 𝔸 S16x32) (bgx : 𝔸 S16)
    (Wgs : 𝔸 S16x16) (bgs : 𝔸 S16) (Wdc : 𝔸 S16x48) (bdc : 𝔸 S16) (b : Fin 64) (s : Fin 16) (t : Fin 8192)
    (ht : t.val = 8191) :
    val_main_v55 (F := Ideal) X P Win Ws Wgx bgx Wgs bgs Wdc bdc (ix2 b s)
      = state (fun k => X (ix3 b t k)) (fun k => P (ix2 b k)) Win Ws Wgx bgx Wgs bgs Wdc bdc s := by
  refine ((val_main_v55_apply X P Win Ws Wgx bgx Wgs bgs Wdc bdc _).trans
    (val_main_v54_apply X P Win Ws Wgx bgx Wgs bgs Wdc bdc _)).trans ?_
  refine (congrArg (val_main_v52 (F := Ideal) X P Win Ws Wgx bgx Wgs bgs Wdc bdc) (show _ = ix3 b t s from ?_)).trans
    (state_at X P Win Ws Wgx bgx Wgs bgs Wdc bdc b t s)
  have hb := b.isLt
  have hs := s.isLt
  funext a
  apply Fin.ext
  match a with
  | ⟨0, _⟩ => show (b.val * 16 + s.val) / 16 = b.val; omega
  | ⟨1, _⟩ => show 8191 + 0 = t.val; omega
  | ⟨2, _⟩ => show (b.val * 16 + s.val) % 16 = s.val; omega

/-! ## The two results as whole arrays -/

/-- The reference's first result is the layer's first result of its arguments. -/
theorem first_result (X : 𝔸 S64x8192x32) (P : 𝔸 S64x16) (Win : 𝔸 S16x32) (Ws : 𝔸 S16x16) (Wout : 𝔸 S32x16)
    (Wgx : 𝔸 S16x32) (bgx : 𝔸 S16) (Wgs : 𝔸 S16x16) (bgs : 𝔸 S16) (Wdc : 𝔸 S16x48) (bdc : 𝔸 S16) :
    val_main_v53 (F := Ideal) X P Win Ws Wout Wgx bgx Wgs bgs Wdc bdc
      = outArr X P Win Ws Wout Wgx bgx Wgs bgs Wdc bdc := by
  funext i
  obtain ⟨b, t, d, rfl⟩ : ∃ (b : Fin 64) (t : Fin 8192) (d : Fin 32), i = ix3 b t d := ⟨i 0, i 1, i 2, eq_ix3 i⟩
  exact (out_at X P Win Ws Wout Wgx bgx Wgs bgs Wdc bdc b t d).trans
    (outArr_apply X P Win Ws Wout Wgx bgx Wgs bgs Wdc bdc b t d).symm

/-- The reference's second result is the layer's second result of its arguments. -/
theorem second_result (X : 𝔸 S64x8192x32) (P : 𝔸 S64x16) (Win : 𝔸 S16x32) (Ws : 𝔸 S16x16) (Wgx : 𝔸 S16x32)
    (bgx : 𝔸 S16) (Wgs : 𝔸 S16x16) (bgs : 𝔸 S16) (Wdc : 𝔸 S16x48) (bdc : 𝔸 S16) :
    val_main_v55 (F := Ideal) X P Win Ws Wgx bgx Wgs bgs Wdc bdc
      = lastArr X P Win Ws Wgx bgx Wgs bgs Wdc bdc := by
  funext i
  obtain ⟨b, s, rfl⟩ : ∃ (b : Fin 64) (s : Fin 16), i = ix2 b s := ⟨i 0, i 1, eq_ix2 i⟩
  exact (last_at X P Win Ws Wgx bgx Wgs bgs Wdc bdc b s lastStep rfl).trans
    (lastArr_apply X P Win Ws Wgx bgx Wgs bgs Wdc bdc b s).symm

end Cert.ReferenceIdeal.Host

end
-- ==== Proof.lean ====
/-
  A gated state-space layer: a tiled kernel against the whole-array computation.

  Both programs compute, for every batch row and time step, the same cell: from the step's input row and the batch
  row's previous state, six contractions against the weights' rows, a decay exp (c · σ (…)), two gates σ (…), and the
  output projection; the second result is the gated state of the last time step. Nothing couples different time steps.
  The kernel works on tiles of 8 batch rows by 1024 time steps, flattening a tile to 8192 rows around each matrix
  product and writing the second result only from the last time tile; the reference contracts the whole arrays. On the
  extended reals a change of float format is the identity, a product into a zero accumulator is the plain sum over the
  contracted coordinate, and the logistic function is 1 / (1 + exp (-y)) by definition, so each side's value at an entry
  is literally the same expression in the cell's rows and the weights (`Cert.Layer.state`, `Cert.Layer.out`): no law of
  arithmetic beyond that is used, and the finiteness of the inputs is never needed.

  The frames of the two kernel programs and the runs of all three are the generated ones; the kernel's result arrays are
  read off its blocks (each written block is that block of one function of the arguments, and the blocks cover the
  arrays), the reference's off its run, and both are the layer's two results of arguments that agree.
-/
import proofs.«138928_j78262894068472_2_alg».proof.Defs
import proofs.«138928_j78262894068472_2_alg».proof.Proof.Gen.Kernel
import proofs.«138928_j78262894068472_2_alg».proof.Proof.Gen.Kernel.Frame
import proofs.«138928_j78262894068472_2_alg».proof.Proof.Gen.KernelIdeal
import proofs.«138928_j78262894068472_2_alg».proof.Proof.Gen.KernelIdeal.Frame
import proofs.«138928_j78262894068472_2_alg».proof.Proof.Gen.KernelIdeal.Value
import proofs.«138928_j78262894068472_2_alg».proof.Proof.Gen.ReferenceIdeal
import proofs.«138928_j78262894068472_2_alg».proof.Proof.Gen.ReferenceIdeal.Run
import proofs.«138928_j78262894068472_2_alg».proof.Proof.Gen.ReferenceIdeal.Read
import proofs.«138928_j78262894068472_2_alg».proof.Proof.Gen.Pre_finite_inputs
import proofs.«138928_j78262894068472_2_alg».proof.Proof.KernelArrays
import proofs.«138928_j78262894068472_2_alg».proof.Proof.HostState
import Idealize.ShloMosaic.Adequacy
import Idealize.ShloMosaic.Init

noncomputable section

namespace Cert.Proof

open Idealize.ShloMosaic Idealize.SL.Sem

/-- The kernel as printed runs to the end, faults nowhere, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the eleven arguments, the kernel's two result arrays and the reference's two results
    are the layer's two results of those arguments. -/
theorem algebraic : Cert.algebraic_KernelIdeal_ReferenceIdeal := by
  intro m ρ m' ρ' _ hagree
  refine ⟨fun c => Cert.KernelIdeal.Arrays.first m c, fun c => Cert.KernelIdeal.Arrays.last m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [a0, a1, a2, a3, a4, a5, a6, a7, a8, a9, a10]
    exact Cert.ReferenceIdeal.Host.first_result _ _ _ _ _ _ _ _ _ _ _
  · obtain ⟨a0, a1, a2, a3, a4, a5, a6, a7, a8, a9, a10⟩ := hagree c
    rw [a0, a1, a2, a3, a5, a6, a7, a8, a9, a10]
    exact Cert.ReferenceIdeal.Host.second_result _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
